-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2000000 : Shape := ⟨1, ![2000000]⟩
abbrev S4000000 : Shape := ⟨1, ![4000000]⟩
abbrev S2x32 : Shape := ⟨2, ![2, 32]⟩
abbrev S32 : Shape := ⟨1, ![32]⟩
abbrev S32x16 : Shape := ⟨2, ![32, 16]⟩
abbrev S16 : Shape := ⟨1, ![16]⟩
abbrev S16x32 : Shape := ⟨2, ![16, 32]⟩
abbrev S32x1 : Shape := ⟨2, ![32, 1]⟩
abbrev S1 : Shape := ⟨1, ![1]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S2000000 : S_.BroadcastsInDim S2000000 (![] : Fin 0 → Fin S2000000.rank)
  reducesTo_S2000000_S_d0 : S2000000.ReducesTo [0] S_
  bcast_S_S4000000 : S_.BroadcastsInDim S4000000 (![] : Fin 0 → Fin S4000000.rank)
  reducesTo_S4000000_S_d0 : S4000000.ReducesTo [0] S_
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S16x32 .f32) (main_arg8 : FVec F S32 .f32) (main_arg9 : FVec F S32x1 .f32) (main_arg10 : FVec F S1 .f32) (main_v33 : IVec S_ 1) : IVec S_ 1 :=
  let main_v34 : FVec F S16x32 .f32 := Host.absf main_arg7
  let main_cst_12 : FVec F S_ .f32 := constant S_ .f32 0x7F800000#32
  let main_v35 : FVec F S16x32 .f32 := broadcastInDim S16x32 ![] bcast_S_S16x32 main_cst_12
  let main_v36 : IVec S16x32 1 := cmpf .olt main_v34 main_v35
  let main_c_13 : IVec S_ 1 := constantI S_ 1 1#1
  let main_v37 : IVec S_ 1 := (fun x v => Host.reduce IntOp.andi x v reducesTo_S16x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg9
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S32 .f32) (main_arg5 : FVec F S32x16 .f32) (main_arg6 : FVec F S16 .f32) (main_arg7 : FVec F S16x32 .f32) (main_arg8 : FVec F S32 .f32) (main_arg9 : FVec F S32x1 .f32) (main_arg10 : FVec F S1 .f32) (main_v13 : IVec S_ 1) (main_v16 : IVec S2x32 1) : IVec S_ 1 :=
  let main_c_5 : IVec S_ 1 := constantI S_ 1 1#1
  let main_v17 : IVec S_ 1 := (fun x v => Host.reduce IntOp.andi x v reducesTo_S2x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg5
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000 .f32) (main_arg1 : FVec F S2000000 .f32) (main_arg2 : FVec F S4000000 .f32) (main_arg3 : FVec F S2x32 .f32) (main_arg4 : FVec F S32 .f32) (main_arg5 : FVec F S32x16 .f32) (main_arg6 : FVec F S16 .f32) (main_arg7 : FVec F S16x32 .f32) (main_arg8 : FVec F S32 .f32) (main_arg9 : FVec F S32x1 .f32) (main_arg10 : FVec F S1 .f32) (main_arg11 : IVec S2000000 32) (main_arg12 : IVec S2000000 32) (main_arg13 : IVec S4000000 32) (main_arg14 : IVec S4000000 32) : IVec S_ 1 :=
  let main_v0 : FVec F S100000 .f32 := Host.absf main_arg0
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  let main_v14 : FVec F S2x32 .f32 := Host.absf main_arg3
  let main_cst_4 : FVec F S_ .f32 := constant S_ .f32 0x7F800000#32
  let main_v15 : FVec F S2x32 .f32 := broadcastInDim S2x32 ![] bcast_S_S2x32 main_cst_4
  let main_v16 : IVec S2x32 1 := cmpf .olt main_v14 main_v15
  fn_part1 (F := F) main_arg4 main_arg5 main_arg6 main_arg7 main_arg8 main_arg9 main_arg10 main_v13 main_v16
-- ==== Kernel.lean ====
abbrev S100000 : Shape := ⟨1, ![100000]⟩
abbrev S2000000 : Shape := ⟨1, ![2000000]⟩
abbrev S4000000 : Shape := ⟨1, ![4000000]⟩
abbrev S2x32 : Shape := ⟨2, ![2, 32]⟩
abbrev S32 : Shape := ⟨1, ![32]⟩
abbrev S32x16 : Shape := ⟨2, ![32, 16]⟩
abbrev S16 : Shape := ⟨1, ![16]⟩
abbrev S16x32 : Shape := ⟨2, ![16, 32]⟩
abbrev S32x1 : Shape := ⟨2, ![32, 1]⟩
abbrev S1 : Shape := ⟨1, ![1]⟩
abbrev S_ : Shape := ⟨0, ![]⟩
abbrev S2000000x1 : Shape := ⟨2, ![2000000, 1]⟩
abbrev S2000000x2 : Shape := ⟨2, ![2000000, 2]⟩
abbrev S1x32 : Shape := ⟨2, ![1, 32]⟩
abbrev S1x16 : Shape := ⟨2, ![1, 16]⟩
abbrev S2000000x16 : Shape := ⟨2, ![2000000, 16]⟩
abbrev S16000x2 : Shape := ⟨2, ![16000, 2]⟩
abbrev S16000x16 : Shape := ⟨2, ![16000, 16]⟩
abbrev S16000x32 : Shape := ⟨2, ![16000, 32]⟩
abbrev S50000x16 : Shape := ⟨2, ![50000, 16]⟩
abbrev S1x1 : Shape := ⟨2, ![1, 1]⟩
abbrev S50000x1 : Shape := ⟨2, ![50000, 1]⟩
abbrev S10000x16 : Shape := ⟨2, ![10000, 16]⟩
abbrev S10000x1 : Shape := ⟨2, ![10000, 1]⟩
abbrev S10000x32 : Shape := ⟨2, ![10000, 32]⟩
abbrev S50000 : Shape := ⟨1, ![50000]⟩
abbrev S4000000x1 : Shape := ⟨2, ![4000000, 1]⟩

abbrev nBuf : Space → Nat
  | .hbm => 52
  | .vmem => 16
  | .smem => 0
  | _ => 0

abbrev bufTy : (tb : Table) → Fin (tcTables nBuf tb) → BufTy
  | .hbm, ⟨0, _⟩ => ⟨S100000, .f32⟩
  | .hbm, ⟨1, _⟩ => ⟨S2000000, .f32⟩
  | .hbm, ⟨2, _⟩ => ⟨S4000000, .f32⟩
  | .hbm, ⟨3, _⟩ => ⟨S2x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S16x32, .f32⟩
  | .hbm, ⟨8, _⟩ => ⟨S32, .f32⟩
  | .hbm, ⟨9, _⟩ => ⟨S32x1, .f32⟩
  | .hbm, ⟨10, _⟩ => ⟨S1, .f32⟩
  | .hbm, ⟨11, _⟩ => ⟨S2000000, .i32⟩
  | .hbm, ⟨12, _⟩ => ⟨S2000000, .i32⟩
  | .hbm, ⟨13, _⟩ => ⟨S4000000, .i32⟩
  | .hbm, ⟨14, _⟩ => ⟨S4000000, .i32⟩
  | .hbm, ⟨15, _⟩ => ⟨S_, .i32⟩
  | .hbm, ⟨16, _⟩ => ⟨S2000000, .i32⟩
  | .hbm, ⟨17, _⟩ => ⟨S2000000, .i1⟩
  | .hbm, ⟨18, _⟩ => ⟨S_, .i32⟩
  | .hbm, ⟨19, _⟩ => ⟨S2000000, .i32⟩
  | .hbm, ⟨20, _⟩ => ⟨S2000000, .i32⟩
  | .hbm, ⟨21, _⟩ => ⟨S2000000, .i32⟩
  | .hbm, ⟨22, _⟩ => ⟨S2000000x1, .i32⟩
  | .hbm, ⟨23, _⟩ => ⟨S2000000, .f32⟩
  | .hbm, ⟨24, _⟩ => ⟨S2000000x1, .f32⟩
  | .hbm, ⟨25, _⟩ => ⟨S2000000x1, .f32⟩
  | .hbm, ⟨26, _⟩ => ⟨S2000000x2, .f32⟩
  | .hbm, ⟨27, _⟩ => ⟨S1x32, .f32⟩
  | .hbm, ⟨28, _⟩ => ⟨S1x16, .f32⟩
  | .hbm, ⟨29, _⟩ => ⟨S2000000x16, .f32⟩
  | .hbm, ⟨30, _⟩ => ⟨S_, .f32⟩
  | .hbm, ⟨31, _⟩ => ⟨S50000x16, .f32⟩
  | .hbm, ⟨32, _⟩ => ⟨S2000000x1, .i32⟩
  | .hbm, ⟨33, _⟩ => ⟨S50000x16, .f32⟩
  | .hbm, ⟨34, _⟩ => ⟨S1x32, .f32⟩
  | .hbm, ⟨35, _⟩ => ⟨S1x1, .f32⟩
  | .hbm, ⟨36, _⟩ => ⟨S50000x1, .f32⟩
  | .hbm, ⟨37, _⟩ => ⟨S50000, .f32⟩
  | .hbm, ⟨38, _⟩ => ⟨S_, .i32⟩
  | .hbm, ⟨39, _⟩ => ⟨S4000000, .i32⟩
  | .hbm, ⟨40, _⟩ => ⟨S4000000, .i1⟩
  | .hbm, ⟨41, _⟩ => ⟨S_, .i32⟩
  | .hbm, ⟨42, _⟩ => ⟨S4000000, .i32⟩
  | .hbm, ⟨43, _⟩ => ⟨S4000000, .i32⟩
  | .hbm, ⟨44, _⟩ => ⟨S4000000, .i32⟩
  | .hbm, ⟨45, _⟩ => ⟨S4000000x1, .i32⟩
  | .hbm, ⟨46, _⟩ => ⟨S4000000, .f32⟩
  | .hbm, ⟨47, _⟩ => ⟨S4000000, .f32⟩
  | .hbm, ⟨48, _⟩ => ⟨S_, .f32⟩
  | .hbm, ⟨49, _⟩ => ⟨S100000, .f32⟩
  | .hbm, ⟨50, _⟩ => ⟨S4000000x1, .i32⟩
  | .hbm, ⟨51, _⟩ => ⟨S100000, .f32⟩
  | .local _ .vmem, ⟨0, _⟩ => ⟨S16000x2, .f32⟩
  | .local _ .vmem, ⟨1, _⟩ => ⟨S16000x2, .f32⟩
  | .local _ .vmem, ⟨2, _⟩ => ⟨S2x32, .f32⟩
  | .local _ .vmem, ⟨3, _⟩ => ⟨S1x32, .f32⟩
  | .local _ .vmem, ⟨4, _⟩ => ⟨S32x16, .f32⟩
  | .local _ .vmem, ⟨5, _⟩ => ⟨S1x16, .f32⟩
  | .local _ .vmem, ⟨6, _⟩ => ⟨S16000x16, .f32⟩
  | .local _ .vmem, ⟨7, _⟩ => ⟨S16000x16, .f32⟩
  | .local _ .vmem, ⟨8, _⟩ => ⟨S10000x16, .f32⟩
  | .local _ .vmem, ⟨9, _⟩ => ⟨S10000x16, .f32⟩
  | .local _ .vmem, ⟨10, _⟩ => ⟨S16x32, .f32⟩
  | .local _ .vmem, ⟨11, _⟩ => ⟨S1x32, .f32⟩
  | .local _ .vmem, ⟨12, _⟩ => ⟨S32x1, .f32⟩
  | .local _ .vmem, ⟨13, _⟩ => ⟨S1x1, .f32⟩
  | .local _ .vmem, ⟨14, _⟩ => ⟨S10000x1, .f32⟩
  | .local _ .vmem, ⟨15, _⟩ => ⟨S10000x1, .f32⟩
  | _, _ => ⟨S100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_1 : Ref sig .tc := ⟨.hbm, 38, rfl⟩
abbrev main_v20 : Ref sig .tc := ⟨.hbm, 39, rfl⟩
abbrev main_v21 : Ref sig .tc := ⟨.hbm, 40, rfl⟩
abbrev main_c_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  shapeCasts_S32_S1x32 : S32.ShapeCasts S1x32
  shapeCasts_S16_S1x16 : S16.ShapeCasts S1x16
  inb_S16000x2_S16000x2_0_0 : ∀ a, (![0, 0] : Fin 2 → Nat) a + S16000x2.size a ≤ S16000x2.size a
  h_S16000x2 : 0 < S16000x2.numel
  shapeCasts_S16000x2_S16000x2 : S16000x2.ShapeCasts S16000x2
  bitsLt_bf16_f32 : FTy.bits .bf16 < FTy.bits .f32
  inb_S2x32_S2x32_0_0 : ∀ a, (![0, 0] : Fin 2 → Nat) a + S2x32.size a ≤ S2x32.size a
  h_S2x32 : 0 < S2x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S16000x32 : S1x32.Broadcasts S16000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S16000x16 : S1x16.Broadcasts S16000x16
  inb_S16000x16_S16000x16_0_0 : ∀ a, (![0, 0] : Fin 2 → Nat) a + S16000x16.size a ≤ S16000x16.size a
  h_S16000x16 : 0 < S16000x16.numel
  bcast_S_S50000x16 : S_.BroadcastsInDim S50000x16 (![] : Fin 0 → Fin S50000x16.rank)
  shapeCasts_S1_S1x1 : S1.ShapeCasts S1x1
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x32_S16x32_0_0 : ∀ a, (![0, 0] : Fin 2 → Nat) a + S16x32.size a ≤ S16x32.size a
  h_S16x32 : 0 < S16x32.numel
  broadcasts_S1x32_S10000x32 : S1x32.Broadcasts S10000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S50000x1_S50000 : S50000x1.ShapeCasts S50000
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S100000 : S_.BroadcastsInDim S100000 (![] : Fin 0 → Fin S100000.rank)
  gather_S100000_S2000000x1_S2000000_n_0_n_n_0_1_1_wf : GatherDims.WF S100000 S2000000x1 S2000000 [] [0] [] [0] [] 1 ![1]
  dot_S16000x2_S2x32_S16000x32_1_0_0_1_n_n_wf : DotDims.WF S16000x2 S2x32 S16000x32 [1] [0] [0] [1] [] []
  dot_S16000x32_S32x16_S16000x16_1_0_0_1_n_n_wf : DotDims.WF S16000x32 S32x16 S16000x16 [1] [0] [0] [1] [] []
  scatter_S50000x16_S2000000x1_S2000000x16_1_0_0_1_wf : ScatterDims.WF S50000x16 S2000000x1 S2000000x16 [1] [0] [0] 1
  dot_S10000x16_S16x32_S10000x32_1_0_0_1_n_n_wf : DotDims.WF S10000x16 S16x32 S10000x32 [1] [0] [0] [1] [] []
  dot_S10000x32_S32x1_S10000x1_1_0_0_1_n_n_wf : DotDims.WF S10000x32 S32x1 S10000x1 [1] [0] [0] [1] [] []
  gather_S50000_S4000000x1_S4000000_n_0_n_n_0_1_1_wf : GatherDims.WF S50000 S4000000x1 S4000000 [] [0] [] [0] [] 1 ![1]
  scatter_S100000_S4000000x1_S4000000_n_0_0_1_wf : ScatterDims.WF S100000 S4000000x1 S4000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x2.size a ≤ S2000000x2.size a
  hwx0_0 : ∀ i : grid0.Coords, EltTy.bits .f32 = 32 ∨ (Rect.block (s := S2000000x2) S16000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x32.size a ≤ S2x32.size a
  hwx0_1 : ∀ i : grid0.Coords, EltTy.bits .f32 = 32 ∨ (Rect.block (s := S2x32) S2x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16000x16.size a ≤ S2000000x16.size a
  hwx0_5 : ∀ i : grid0.Coords, EltTy.bits .f32 = 32 ∨ (Rect.block (s := S2000000x16) S16000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S50000x16.size a
  hwx1_0 : ∀ i : grid1.Coords, EltTy.bits .f32 = 32 ∨ (Rect.block (s := S50000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x32.size a ≤ S16x32.size a
  hwx1_1 : ∀ i : grid1.Coords, EltTy.bits .f32 = 32 ∨ (Rect.block (s := S16x32) S16x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x1.size a ≤ S32x1.size a
  hwx1_3 : ∀ i : grid1.Coords, EltTy.bits .f32 = 32 ∨ (Rect.block (s := S32x1) S32x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x1.size a ≤ S50000x1.size a
  hwx1_5 : ∀ i : grid1.Coords, EltTy.bits .f32 = 32 ∨ (Rect.block (s := S50000x1) S10000x1.size (cc1_transform_5 i) (hinb1_5 i)).WholeWords (EltTy.packing .f32)

variable [Facts₀]

def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def dot_S16000x2_S2x32_S16000x32_1_0_0_1_n_n : DotDims S16000x2 S2x32 S16000x32 where
  lhsContracting := [1]
  rhsContracting := [0]
  lhsNonContracting := [0]
  rhsNonContracting := [1]
  lhsBatch := []
  rhsBatch := []
  wf := dot_S16000x2_S2x32_S16000x32_1_0_0_1_n_n_wf
def dot_S16000x32_S32x16_S16000x16_1_0_0_1_n_n : DotDims S16000x32 S32x16 S16000x16 where
  lhsContracting := [1]
  rhsContracting := [0]
  lhsNonContracting := [0]
  rhsNonContracting := [1]
  lhsBatch := []
  rhsBatch := []
  wf := dot_S16000x32_S32x16_S16000x16_1_0_0_1_n_n_wf
def scatter_S50000x16_S2000000x1_S2000000x16_1_0_0_1 : ScatterDims S50000x16 S2000000x1 S2000000x16 where
  updateWindowDims := [1]
  insertedWindowDims := [0]
  scatterDimsToOperandDims := [0]
  indexVectorDim := 1
  wf := scatter_S50000x16_S2000000x1_S2000000x16_1_0_0_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def gather_S50000_S4000000x1_S4000000_n_0_n_n_0_1_1 : GatherDims S50000 S4000000x1 S4000000 where
  offsetDims := []
  collapsedSliceDims := [0]
  operandBatchingDims := []
  startIndicesBatchingDims := []
  startIndexMap := [0]
  indexVectorDim := 1
  sliceSizes := ![1]
  wf := gather_S50000_S4000000x1_S4000000_n_0_n_n_0_1_1_wf
def scatter_S100000_S4000000x1_S4000000_n_0_0_1 : ScatterDims S100000 S4000000x1 S4000000 where
  updateWindowDims := []
  insertedWindowDims := [0]
  scatterDimsToOperandDims := [0]
  indexVectorDim := 1
  wf := scatter_S100000_S4000000x1_S4000000_n_0_0_1_wf

abbrev win0_0 : Pipeline.Window sig grid0 :=
  Pipeline.Window.ofSpec (Memref.whole main_v9) S16000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S16000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S16x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S32x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S10000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000 : Shape := ⟨1, ![100000]⟩
abbrev S2000000 : Shape := ⟨1, ![2000000]⟩
abbrev S4000000 : Shape := ⟨1, ![4000000]⟩
abbrev S2x32 : Shape := ⟨2, ![2, 32]⟩
abbrev S32 : Shape := ⟨1, ![32]⟩
abbrev S32x16 : Shape := ⟨2, ![32, 16]⟩
abbrev S16 : Shape := ⟨1, ![16]⟩
abbrev S16x32 : Shape := ⟨2, ![16, 32]⟩
abbrev S32x1 : Shape := ⟨2, ![32, 1]⟩
abbrev S1 : Shape := ⟨1, ![1]⟩
abbrev S_ : Shape := ⟨0, ![]⟩
abbrev S2000000x1 : Shape := ⟨2, ![2000000, 1]⟩
abbrev S2000000x2 : Shape := ⟨2, ![2000000, 2]⟩
abbrev S2000000x32 : Shape := ⟨2, ![2000000, 32]⟩
abbrev S1x32 : Shape := ⟨2, ![1, 32]⟩
abbrev S2000000x16 : Shape := ⟨2, ![2000000, 16]⟩
abbrev S1x16 : Shape := ⟨2, ![1, 16]⟩
abbrev S50000x16 : Shape := ⟨2, ![50000, 16]⟩
abbrev S50000x32 : Shape := ⟨2, ![50000, 32]⟩
abbrev S50000x1 : Shape := ⟨2, ![50000, 1]⟩
abbrev S1x1 : Shape := ⟨2, ![1, 1]⟩
abbrev S50000 : Shape := ⟨1, ![50000]⟩
abbrev S4000000x1 : Shape := ⟨2, ![4000000, 1]⟩

abbrev nBuf : Space → Nat
  | .hbm => 78
  | .vmem => 0
  | .smem => 0
  | _ => 0

abbrev bufTy : (tb : Table) → Fin (tcTables nBuf tb) → BufTy
  | .hbm, ⟨0, _⟩ => ⟨S100000, .f32⟩
  | .hbm, ⟨1, _⟩ => ⟨S2000000, .f32⟩
  | .hbm, ⟨2, _⟩ => ⟨S4000000, .f32⟩
  | .hbm, ⟨3, _⟩ => ⟨S2x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S16x32, .f32⟩
  | .hbm, ⟨8, _⟩ => ⟨S32, .f32⟩
  | .hbm, ⟨9, _⟩ => ⟨S32x1, .f32⟩
  | .hbm, ⟨10, _⟩ => ⟨S1, .f32⟩
  | .hbm, ⟨11, _⟩ => ⟨S2000000, .i32⟩
  | .hbm, ⟨12, _⟩ => ⟨S2000000, .i32⟩
  | .hbm, ⟨13, _⟩ => ⟨S4000000, .i32⟩
  | .hbm, ⟨14, _⟩ => ⟨S4000000, .i32⟩
  | .hbm, ⟨15, _⟩ => ⟨S_, .i32⟩
  | .hbm, ⟨16, _⟩ => ⟨S2000000, .i32⟩
  | .hbm, ⟨17, _⟩ => ⟨S2000000, .i1⟩
  | .hbm, ⟨18, _⟩ => ⟨S_, .i32⟩
  | .hbm, ⟨19, _⟩ => ⟨S2000000, .i32⟩
  | .hbm, ⟨20, _⟩ => ⟨S2000000, .i32⟩
  | .hbm, ⟨21, _⟩ => ⟨S2000000, .i32⟩
  | .hbm, ⟨22, _⟩ => ⟨S2000000x1, .i32⟩
  | .hbm, ⟨23, _⟩ => ⟨S2000000, .f32⟩
  | .hbm, ⟨24, _⟩ => ⟨S2000000x1, .f32⟩
  | .hbm, ⟨25, _⟩ => ⟨S2000000x1, .f32⟩
  | .hbm, ⟨26, _⟩ => ⟨S2000000x2, .f32⟩
  | .hbm, ⟨27, _⟩ => ⟨S2000000x32, .f32⟩
  | .hbm, ⟨28, _⟩ => ⟨S1x32, .f32⟩
  | .hbm, ⟨29, _⟩ => ⟨S2000000x32, .f32⟩
  | .hbm, ⟨30, _⟩ => ⟨S2000000x32, .f32⟩
  | .hbm, ⟨31, _⟩ => ⟨S2000000x32, .f32⟩
  | .hbm, ⟨32, _⟩ => ⟨S2000000x16, .f32⟩
  | .hbm, ⟨33, _⟩ => ⟨S1x16, .f32⟩
  | .hbm, ⟨34, _⟩ => ⟨S2000000x16, .f32⟩
  | .hbm, ⟨35, _⟩ => ⟨S2000000x16, .f32⟩
  | .hbm, ⟨36, _⟩ => ⟨S_, .f32⟩
  | .hbm, ⟨37, _⟩ => ⟨S50000x16, .f32⟩
  | .hbm, ⟨38, _⟩ => ⟨S2000000x1, .i32⟩
  | .hbm, ⟨39, _⟩ => ⟨S50000x16, .f32⟩
  | .hbm, ⟨40, _⟩ => ⟨S50000x32, .f32⟩
  | .hbm, ⟨41, _⟩ => ⟨S1x32, .f32⟩
  | .hbm, ⟨42, _⟩ => ⟨S50000x32, .f32⟩
  | .hbm, ⟨43, _⟩ => ⟨S50000x32, .f32⟩
  | .hbm, ⟨44, _⟩ => ⟨S50000x32, .f32⟩
  | .hbm, ⟨45, _⟩ => ⟨S50000x1, .f32⟩
  | .hbm, ⟨46, _⟩ => ⟨S1x1, .f32⟩
  | .hbm, ⟨47, _⟩ => ⟨S50000x1, .f32⟩
  | .hbm, ⟨48, _⟩ => ⟨S50000x1, .f32⟩
  | .hbm, ⟨49, _⟩ => ⟨S50000, .f32⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S50000, .f32⟩
  | .hbm, ⟨54, _⟩ => ⟨S50000, .f32⟩
  | .hbm, ⟨55, _⟩ => ⟨S50000, .i1⟩
  | .hbm, ⟨56, _⟩ => ⟨S50000, .f32⟩
  | .hbm, ⟨57, _⟩ => ⟨S50000, .f32⟩
  | .hbm, ⟨58, _⟩ => ⟨S50000, .f32⟩
  | .hbm, ⟨59, _⟩ => ⟨S50000, .f32⟩
  | .hbm, ⟨60, _⟩ => ⟨S50000, .f32⟩
  | .hbm, ⟨61, _⟩ => ⟨S50000, .f32⟩
  | .hbm, ⟨62, _⟩ => ⟨S50000, .f32⟩
  | .hbm, ⟨63, _⟩ => ⟨S50000, .f32⟩
  | .hbm, ⟨64, _⟩ => ⟨S_, .i32⟩
  | .hbm, ⟨65, _⟩ => ⟨S4000000, .i32⟩
  | .hbm, ⟨66, _⟩ => ⟨S4000000, .i1⟩
  | .hbm, ⟨67, _⟩ => ⟨S_, .i32⟩
  | .hbm, ⟨68, _⟩ => ⟨S4000000, .i32⟩
  | .hbm, ⟨69, _⟩ => ⟨S4000000, .i32⟩
  | .hbm, ⟨70, _⟩ => ⟨S4000000, .i32⟩
  | .hbm, ⟨71, _⟩ => ⟨S4000000x1, .i32⟩
  | .hbm, ⟨72, _⟩ => ⟨S4000000, .f32⟩
  | .hbm, ⟨73, _⟩ => ⟨S4000000, .f32⟩
  | .hbm, ⟨74, _⟩ => ⟨S_, .f32⟩
  | .hbm, ⟨75, _⟩ => ⟨S100000, .f32⟩
  | .hbm, ⟨76, _⟩ => ⟨S4000000x1, .i32⟩
  | .hbm, ⟨77, _⟩ => ⟨S100000, .f32⟩
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_v32 : Ref sig .tc := ⟨.hbm, 63, rfl⟩
abbrev main_c_1 : Ref sig .tc := ⟨.hbm, 64, rfl⟩
abbrev main_v33 : Ref sig .tc := ⟨.hbm, 65, rfl⟩
abbrev main_v34 : Ref sig .tc := ⟨.hbm, 66, rfl⟩
abbrev main_c_2 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_3 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  bcast_S32_S1x32_1 : S32.BroadcastsInDim S1x32 (![1] : Fin 1 → Fin S1x32.rank)
  bcast_S1x32_S2000000x32_0_1 : S1x32.BroadcastsInDim S2000000x32 (![0, 1] : Fin 2 → Fin S2000000x32.rank)
  bcast_S16_S1x16_1 : S16.BroadcastsInDim S1x16 (![1] : Fin 1 → Fin S1x16.rank)
  bcast_S1x16_S2000000x16_0_1 : S1x16.BroadcastsInDim S2000000x16 (![0, 1] : Fin 2 → Fin S2000000x16.rank)
  bcast_S_S50000x16 : S_.BroadcastsInDim S50000x16 (![] : Fin 0 → Fin S50000x16.rank)
  bcast_S1x32_S50000x32_0_1 : S1x32.BroadcastsInDim S50000x32 (![0, 1] : Fin 2 → Fin S50000x32.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  bcast_S_S50000 : S_.BroadcastsInDim S50000 (![] : Fin 0 → Fin S50000.rank)
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S100000 : S_.BroadcastsInDim S100000 (![] : Fin 0 → Fin S100000.rank)
  gather_S100000_S2000000x1_S2000000_n_0_n_n_0_1_1_wf : GatherDims.WF S100000 S2000000x1 S2000000 [] [0] [] [0] [] 1 ![1]
  dot_S2000000x2_S2x32_S2000000x32_1_0_0_1_n_n_wf : DotDims.WF S2000000x2 S2x32 S2000000x32 [1] [0] [0] [1] [] []
  dot_S2000000x32_S32x16_S2000000x16_1_0_0_1_n_n_wf : DotDims.WF S2000000x32 S32x16 S2000000x16 [1] [0] [0] [1] [] []
  scatter_S50000x16_S2000000x1_S2000000x16_1_0_0_1_wf : ScatterDims.WF S50000x16 S2000000x1 S2000000x16 [1] [0] [0] 1
  dot_S50000x16_S16x32_S50000x32_1_0_0_1_n_n_wf : DotDims.WF S50000x16 S16x32 S50000x32 [1] [0] [0] [1] [] []
  dot_S50000x32_S32x1_S50000x1_1_0_0_1_n_n_wf : DotDims.WF S50000x32 S32x1 S50000x1 [1] [0] [0] [1] [] []
  gather_S50000_S4000000x1_S4000000_n_0_n_n_0_1_1_wf : GatherDims.WF S50000 S4000000x1 S4000000 [] [0] [] [0] [] 1 ![1]
  scatter_S100000_S4000000x1_S4000000_n_0_0_1_wf : ScatterDims.WF S100000 S4000000x1 S4000000 [] [0] [0] 1

variable [Facts₀]

def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def dot_S2000000x2_S2x32_S2000000x32_1_0_0_1_n_n : DotDims S2000000x2 S2x32 S2000000x32 where
  lhsContracting := [1]
  rhsContracting := [0]
  lhsNonContracting := [0]
  rhsNonContracting := [1]
  lhsBatch := []
  rhsBatch := []
  wf := dot_S2000000x2_S2x32_S2000000x32_1_0_0_1_n_n_wf
def dot_S2000000x32_S32x16_S2000000x16_1_0_0_1_n_n : DotDims S2000000x32 S32x16 S2000000x16 where
  lhsContracting := [1]
  rhsContracting := [0]
  lhsNonContracting := [0]
  rhsNonContracting := [1]
  lhsBatch := []
  rhsBatch := []
  wf := dot_S2000000x32_S32x16_S2000000x16_1_0_0_1_n_n_wf
def scatter_S50000x16_S2000000x1_S2000000x16_1_0_0_1 : ScatterDims S50000x16 S2000000x1 S2000000x16 where
  updateWindowDims := [1]
  insertedWindowDims := [0]
  scatterDimsToOperandDims := [0]
  indexVectorDim := 1
  wf := scatter_S50000x16_S2000000x1_S2000000x16_1_0_0_1_wf
def dot_S50000x16_S16x32_S50000x32_1_0_0_1_n_n : DotDims S50000x16 S16x32 S50000x32 where
  lhsContracting := [1]
  rhsContracting := [0]
  lhsNonContracting := [0]
  rhsNonContracting := [1]
  lhsBatch := []
  rhsBatch := []
  wf := dot_S50000x16_S16x32_S50000x32_1_0_0_1_n_n_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf
def gather_S50000_S4000000x1_S4000000_n_0_n_n_0_1_1 : GatherDims S50000 S4000000x1 S4000000 where
  offsetDims := []
  collapsedSliceDims := [0]
  operandBatchingDims := []
  startIndicesBatchingDims := []
  startIndexMap := [0]
  indexVectorDim := 1
  sliceSizes := ![1]
  wf := gather_S50000_S4000000x1_S4000000_n_0_n_n_0_1_1_wf
def scatter_S100000_S4000000x1_S4000000_n_0_0_1 : ScatterDims S100000 S4000000x1 S4000000 where
  updateWindowDims := []
  insertedWindowDims := [0]
  scatterDimsToOperandDims := [0]
  indexVectorDim := 1
  wf := scatter_S100000_S4000000x1_S4000000_n_0_0_1_wf

class Facts : Prop extends Facts₀ where

variable [Facts]
-- ==== Proof.KernelRun.lean ====
/-
  The idealized kernel program's run with its two results named.

  @main is five segments: host operations, the message kernel's region, host operations (the scatter-add of the messages
  into reactions), the rate kernel's region, host operations (the gather of the rates, the product with the
  stoichiometry, the scatter-add into metabolites). Every weakly fair execution terminates without a fault, and at the end
  each unscoped buffer holds what the fold of the segments through the launch memory leaves there: the two results at
  that fold's value, the fifteen arguments as launched.
-/
import proofs.«144607_j70798240907373_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the launch over the five segments, the last thread state read against the final state, the two results at
    the fold's value and each argument walked back through the fold to the launch memory. -/
theorem run_named : θ_run defs (onTc (τ := τ) (main (F := F))) ⟨m, fun _ => 0, ρ⟩ (fun r => ∀ c : Dev nD,
      r.2.mem ((c.tc : Thread nD τ).loc main_v30) = W5 m ρ c (Proc.devRef .tc main_v30)
      ∧ r.2.mem ((c.tc : Thread nD τ).loc main_v19) = W5 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v30 (by decide)),
       h c _ (mem_uc main_v19 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c)⟩)

end Cert.KernelIdeal.Hand

end
-- ==== Proof.Mlp.lean ====
/-
  The mathematics both programs compute, on the extended reals.

  A two-layer perceptron applied to every row of a matrix: row r of the input, a 1×K vector, goes through an affine map
  to H hidden units, the hyperbolic tangent, and a second affine map to N outputs,

      out r c = (∑ k, tanh ((∑ a, x r a · w₁ a k) + b₁ k) · w₂ k c) + b₂ c.

  Entry (r, c) depends on the input through row r only (`out_congr`): this is what lets a block of rows be computed from
  the same block of rows of the input, whatever the tiling.

  The second perceptron's single output goes through softplus, log (1 + eˣ), in the overflow-free form
  max x 0 + log1p (exp (−|x|)) that both programs spell.
-/
import Idealize.ShloMosaic.PureOps.Ideal.Laws
import Idealize.ShloMosaic.Lib.ValueIdx

noncomputable section

open scoped BigOperators

namespace Cert.Mlp

open Idealize.ShloMosaic Idealize.ShloMosaic.ValueIdx

variable {M K H N : Nat}

/-- Hidden unit k of row r: the hyperbolic tangent of the first affine map. -/
def hidden (x : (⟨2, ![M, K]⟩ : Shape).Idx → EReal) (w1 : (⟨2, ![K, H]⟩ : Shape).Idx → EReal) (b1 : Fin H → EReal)
    (r : Fin M) (k : Fin H) : EReal :=
  Ideal.tanh ((∑ a : Fin K, x (ix2 r a) * w1 (ix2 a k)) + b1 k)

/-- Output c of row r: the second affine map of the hidden units. -/
def out (x : (⟨2, ![M, K]⟩ : Shape).Idx → EReal) (w1 : (⟨2, ![K, H]⟩ : Shape).Idx → EReal) (b1 : Fin H → EReal)
    (w2 : (⟨2, ![H, N]⟩ : Shape).Idx → EReal) (b2 : Fin N → EReal) (r : Fin M) (c : Fin N) : EReal :=
  (∑ k : Fin H, hidden x w1 b1 r k * w2 (ix2 k c)) + b2 c

/-- The perceptron's row r reads the input's row r only: two inputs, of any heights, that agree on a row give that
    row the same outputs. -/
theorem out_congr {M' : Nat} (x : (⟨2, ![M, K]⟩ : Shape).Idx → EReal) (x' : (⟨2, ![M', K]⟩ : Shape).Idx → EReal)
    (w1 : (⟨2, ![K, H]⟩ : Shape).Idx → EReal) (b1 : Fin H → EReal) (w2 : (⟨2, ![H, N]⟩ : Shape).Idx → EReal) (b2 : Fin N → EReal)
    (r : Fin M) (r' : Fin M') (c : Fin N) (h : ∀ a : Fin K, x (ix2 r a) = x' (ix2 r' a)) :
    out x w1 b1 w2 b2 r c = out x' w1 b1 w2 b2 r' c := by
  unfold out hidden
  simp only [h]

/-- Softplus in its overflow-free form. -/
def softplus (x : EReal) : EReal := max x 0 + Ideal.log1p (Ideal.exp (-(max x (-x))))

end Cert.Mlp

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.Payload.lean ====
/-
  What the two kernel bodies compute, entry by entry.

  The message kernel's body, on a block of 16000 rows, is the perceptron of Mlp.lean on those rows: the two matrix
  products into zero accumulators are plain sums over the contracted coordinate, the bias rows are repeated down the
  block, and the changes of float format are the identity on the extended reals. The rate kernel's body, on a block of
  10000 rows, is the second perceptron (one output) followed by softplus.
-/
import proofs.«144607_j70798240907373_2_alg».proof.Proof.Gen.KernelIdeal.Skeleton
import proofs.«144607_j70798240907373_2_alg».proof.Proof.Mlp
import proofs.«144607_j70798240907373_2_alg».proof.Proof.LibPlainDot
import Idealize.ShloMosaic.Lib.Pipeline.Value
import Idealize.ShloMosaic.Lib.ValueLayout

noncomputable section

open scoped BigOperators

namespace Cert.KernelIdeal.Payload

open Idealize.ShloMosaic Idealize.ShloMosaic.ValueIdx Cert.KernelIdeal Cert.KernelIdeal.Gen

theorem tanh_apply {s : Shape} {φ : FTy} (a : FVec Ideal s φ) (i : s.Idx) : tanh a i = Ideal.tanh (a i) := rfl

/-- The message kernel's first product at (r, k): the sum over the two input features. -/
theorem mm0a_apply (x : FVec Ideal S16000x2 .bf16) (w : FVec Ideal S2x32 .bf16) (r : Fin 16000) (k : Fin 32) :
    matmul dot_S16000x2_S2x32_S16000x32_1_0_0_1_n_n none x w (constant S16000x32 .f32 0x00000000#32) (ix2 r k)
      = ∑ a : Fin 2, x (ix2 r a) * w (ix2 a k) :=
  PlainDot.matmul_zero_apply (M := 16000) (K := 2) (N := 32) none x w r k

/-- The message kernel's second product at (r, c): the sum over the 32 hidden units. -/
theorem mm0b_apply (x : FVec Ideal S16000x32 .bf16) (w : FVec Ideal S32x16 .bf16) (r : Fin 16000) (c : Fin 16) :
    matmul dot_S16000x32_S32x16_S16000x16_1_0_0_1_n_n none x w (constant S16000x16 .f32 0x00000000#32) (ix2 r c)
      = ∑ k : Fin 32, x (ix2 r k) * w (ix2 k c) :=
  PlainDot.matmul_zero_apply (M := 16000) (K := 32) (N := 16) none x w r c

/-- The message kernel's stored block, at (p, q), is the perceptron of the loaded blocks at row p, output q. -/
theorem pay0_apply (x0 : Vec Ideal S16000x2 .f32) (x1 : Vec Ideal S2x32 .f32) (x2 : Vec Ideal S1x32 .f32)
    (x3 : Vec Ideal S32x16 .f32) (x4 : Vec Ideal S1x16 .f32) (p : Fin 16000) (q : Fin 16) :
    k0_pay1 x0 x1 x2 x3 x4 (ix2 p q)
      = Mlp.out (M := 16000) (K := 2) (H := 32) (N := 16) x0 x1 (fun k => x2 (ix2 (0 : Fin 1) k)) x3 (fun c => x4 (ix2 (0 : Fin 1) c)) p q := by
  dsimp only [k0_pay1]
  rw [addf_apply, mm0b_apply, broadcastTo_1b_ab_apply]
  unfold Mlp.out Mlp.hidden
  simp only [truncf_apply, tanh_apply, addf_apply, mm0a_apply, broadcastTo_1b_ab_apply, shapeCast_self]

theorem exp_apply {s : Shape} {φ : FTy} (a : FVec Ideal s φ) (i : s.Idx) : exp a i = Ideal.exp (a i) := rfl
theorem log1p_apply {s : Shape} {φ : FTy} (a : FVec Ideal s φ) (i : s.Idx) : log1p a i = Ideal.log1p (a i) := rfl
theorem absf_apply {s : Shape} {φ : FTy} (a : FVec Ideal s φ) (i : s.Idx) : absf a i = max (a i) (-(a i)) := rfl

/-- The zero word denotes the real zero. -/
theorem zero_word : Scalar.ofBits (F := Ideal) .f32 0x00000000#32 = (0 : EReal) := Ideal.ofBits_zero_f32

/-- No extended real differs from itself: the test that guards a not-a-number never fires. -/
theorem cmp_one_self (x : EReal) : Ideal.cmp .one x x = 0#1 := by simp [Ideal.cmp]

/-- The rate kernel's last lines, on any vector z of logits: max z 0 + log1p (exp (0 − |z − 0|)), chosen by a test that
    never fires, is softplus of each entry. -/
theorem softplus_chain (z : FVec Ideal S10000x1 .f32) (i : S10000x1.Idx) :
    select (cmpf .one (subf z (broadcast S10000x1 (Scalar.ofBits (F := Ideal) .f32 0x00000000#32))) (subf z (broadcast S10000x1 (Scalar.ofBits (F := Ideal) .f32 0x00000000#32))))
      (addf z (broadcast S10000x1 (Scalar.ofBits (F := Ideal) .f32 0x00000000#32)))
      (addf (maximumf z (broadcast S10000x1 (Scalar.ofBits (F := Ideal) .f32 0x00000000#32)))
        (log1p (exp (subf (broadcast S10000x1 (Scalar.ofBits (F := Ideal) .f32 0x00000000#32)) (absf (subf z (broadcast S10000x1 (Scalar.ofBits (F := Ideal) .f32 0x00000000#32)))))))) i
      = Mlp.softplus (z i) := by
  unfold Mlp.softplus
  simp only [select_apply, cmpf_apply, Ideal.cmpf_def, cmp_one_self, select_zero, addf_apply, maximumf_apply, subf_apply,
    broadcast_apply, log1p_apply, exp_apply, absf_apply, zero_word, sub_zero, zero_sub]

/-- The rate kernel's first product at (r, k): the sum over the 16 message coordinates. -/
theorem mm1a_apply (x : FVec Ideal S10000x16 .bf16) (w : FVec Ideal S16x32 .bf16) (r : Fin 10000) (k : Fin 32) :
    matmul dot_S10000x16_S16x32_S10000x32_1_0_0_1_n_n none x w (constant S10000x32 .f32 0x00000000#32) (ix2 r k)
      = ∑ a : Fin 16, x (ix2 r a) * w (ix2 a k) :=
  PlainDot.matmul_zero_apply (M := 10000) (K := 16) (N := 32) none x w r k

/-- The rate kernel's second product at (r, c): the sum over the 32 hidden units. -/
theorem mm1b_apply (x : FVec Ideal S10000x32 .bf16) (w : FVec Ideal S32x1 .bf16) (r : Fin 10000) (c : Fin 1) :
    matmul dot_S10000x32_S32x1_S10000x1_1_0_0_1_n_n none x w (constant S10000x1 .f32 0x00000000#32) (ix2 r c)
      = ∑ k : Fin 32, x (ix2 r k) * w (ix2 k c) :=
  PlainDot.matmul_zero_apply (M := 10000) (K := 32) (N := 1) none x w r c

/-- The rate kernel's stored block, at (p, q), is softplus of the second perceptron of the loaded blocks at row p. -/
theorem pay1_apply (x0 : Vec Ideal S10000x16 .f32) (x1 : Vec Ideal S16x32 .f32) (x2 : Vec Ideal S1x32 .f32)
    (x3 : Vec Ideal S32x1 .f32) (x4 : Vec Ideal S1x1 .f32) (p : Fin 10000) (q : Fin 1) :
    k1_pay1 x0 x1 x2 x3 x4 (ix2 p q)
      = Mlp.softplus (Mlp.out (M := 10000) (K := 16) (H := 32) (N := 1) x0 x1 (fun k => x2 (ix2 (0 : Fin 1) k)) x3 (fun c => x4 (ix2 (0 : Fin 1) c)) p q) := by
  dsimp only [k1_pay1]
  rw [softplus_chain]
  refine congrArg Mlp.softplus ?_
  rw [addf_apply, mm1b_apply, broadcastTo_1b_ab_apply]
  unfold Mlp.out Mlp.hidden
  simp only [truncf_apply, tanh_apply, addf_apply, mm1a_apply, broadcastTo_1b_ab_apply, shapeCast_self]

end Cert.KernelIdeal.Payload

end
-- ==== Proof.MsgArray.lean ====
/-
  The message kernel's output array after its region, as one function of the arrays the region finds.

  The grid has 125 points. Point t stages rows 16000·t … 16000·t + 15999 of the edge features and the four small
  operands whole, and writes back rows 16000·t … 16000·t + 15999 of the messages. What it writes is the perceptron of
  those rows, and the perceptron's row r reads the features' row r only, so every written block is the same block of ONE
  array: the perceptron applied to all two million rows. The 125 blocks cover the output (row r lies in block r / 16000),
  so that array is what the output holds at the end.
-/
import proofs.«144607_j70798240907373_2_alg».proof.Proof.Gen.KernelIdeal.Frame
import proofs.«144607_j70798240907373_2_alg».proof.Proof.Payload
import Idealize.ShloMosaic.Lib.Pipeline.Value

set_option maxRecDepth 16384

noncomputable section

namespace Cert.KernelIdeal.Msg

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The messages as one function of the five arrays: the perceptron on every row, the biases read off their one row. -/
def msg (X : S2000000x2.Idx → Elt Ideal .f32) (W1 : S2x32.Idx → Elt Ideal .f32) (B1 : S1x32.Idx → Elt Ideal .f32)
    (W2 : S32x16.Idx → Elt Ideal .f32) (B2 : S1x16.Idx → Elt Ideal .f32) : S2000000x16.Idx → Elt Ideal .f32 :=
  fun i => Mlp.out (M := 2000000) (K := 2) (H := 32) (N := 16) X W1 (fun k => B1 (ix2 (0 : Fin 1) k)) W2 (fun c => B2 (ix2 (0 : Fin 1) c)) (i 0) (i 1)

/-- The same, at an index given by its coordinates. -/
theorem msg_apply (X : S2000000x2.Idx → Elt Ideal .f32) (W1 : S2x32.Idx → Elt Ideal .f32) (B1 : S1x32.Idx → Elt Ideal .f32)
    (W2 : S32x16.Idx → Elt Ideal .f32) (B2 : S1x16.Idx → Elt Ideal .f32) (i : S2000000x16.Idx) (r : Fin 2000000) (q : Fin 16)
    (h0 : (i 0).val = r.val) (h1 : (i 1).val = q.val) :
    msg X W1 B1 W2 B2 i = Mlp.out (M := 2000000) (K := 2) (H := 32) (N := 16) X W1 (fun k => B1 (ix2 (0 : Fin 1) k)) W2 (fun c => B2 (ix2 (0 : Fin 1) c)) r q := by
  have e0 : i 0 = r := Fin.ext h0
  have e1 : i 1 = q := Fin.ext h1
  unfold msg
  rw [e0, e1]

/-- The printed index maps over the grid: the features' and the messages' blocks move down with the point, the four
    small operands stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry (p, a) of the features' block at point t is entry (16000·t + p, a) of the array. -/
theorem feat_blk (c : Dev nD) (t : Fin cfg0.N) (p : Fin 16000) (a : Fin 2) (r : Fin 2000000) (hr : r.val = 16000 * t.val + p.val) :
    (iblk0 V c 0 t : Vec Ideal S16000x2 .f32) (ix2 p a) = (V c main_v9 : S2000000x2.Idx → Elt Ideal .f32) (ix2 r a) := by
  obtain ⟨e0, e1, -⟩ := idx_facts t
  unfold iblk0
  rw [View.read_apply]
  show V c main_v9 _ = V c main_v9 _
  refine congrArg (V c main_v9) ?_
  funext ax
  apply Fin.ext
  match ax with
  | ⟨0, _⟩ => show win0_0.index t (0 : Fin 2) * 16000 + 1 * p.val = r.val; rw [e0, hr]; omega
  | ⟨1, _⟩ => show win0_0.index t (1 : Fin 2) * 2 + 1 * a.val = a.val; rw [e1]; omega

/-- The first weights' block at any point is the whole array. -/
theorem w1_blk (c : Dev nD) (t : Fin cfg0.N) : (iblk0 V c 1 t : Vec Ideal S2x32 .f32) = V c main_arg3 := by
  obtain ⟨-, -, e0, e1, -⟩ := idx_facts t
  funext y
  unfold iblk0
  rw [View.read_apply]
  show V c main_arg3 _ = V c main_arg3 y
  refine congrArg (V c main_arg3) ?_
  funext ax
  apply Fin.ext
  match ax with
  | ⟨0, _⟩ => show win0_1.index t (0 : Fin 2) * 2 + 1 * (y 0).val = (y 0).val; rw [e0]; omega
  | ⟨1, _⟩ => show win0_1.index t (1 : Fin 2) * 32 + 1 * (y 1).val = (y 1).val; rw [e1]; omega

/-- The first bias row's block at any point is the whole array. -/
theorem b1_blk (c : Dev nD) (t : Fin cfg0.N) : (iblk0 V c 2 t : Vec Ideal S1x32 .f32) = V c main_v10 := by
  obtain ⟨-, -, -, -, e0, e1, -⟩ := idx_facts t
  funext y
  unfold iblk0
  rw [View.read_apply]
  show V c main_v10 _ = V c main_v10 y
  refine congrArg (V c main_v10) ?_
  funext ax
  apply Fin.ext
  match ax with
  | ⟨0, _⟩ => show win0_2.index t (0 : Fin 2) * 1 + 1 * (y 0).val = (y 0).val; rw [e0]; omega
  | ⟨1, _⟩ => show win0_2.index t (1 : Fin 2) * 32 + 1 * (y 1).val = (y 1).val; rw [e1]; omega

/-- The second weights' block at any point is the whole array. -/
theorem w2_blk (c : Dev nD) (t : Fin cfg0.N) : (iblk0 V c 3 t : Vec Ideal S32x16 .f32) = V c main_arg5 := by
  obtain ⟨-, -, -, -, -, -, e0, e1, -⟩ := idx_facts t
  funext y
  unfold iblk0
  rw [View.read_apply]
  show V c main_arg5 _ = V c main_arg5 y
  refine congrArg (V c main_arg5) ?_
  funext ax
  apply Fin.ext
  match ax with
  | ⟨0, _⟩ => show win0_3.index t (0 : Fin 2) * 32 + 1 * (y 0).val = (y 0).val; rw [e0]; omega
  | ⟨1, _⟩ => show win0_3.index t (1 : Fin 2) * 16 + 1 * (y 1).val = (y 1).val; rw [e1]; omega

/-- The second bias row's block at any point is the whole array. -/
theorem b2_blk (c : Dev nD) (t : Fin cfg0.N) : (iblk0 V c 4 t : Vec Ideal S1x16 .f32) = V c main_v11 := by
  obtain ⟨-, -, -, -, -, -, -, -, e0, e1, -⟩ := idx_facts t
  funext y
  unfold iblk0
  rw [View.read_apply]
  show V c main_v11 _ = V c main_v11 y
  refine congrArg (V c main_v11) ?_
  funext ax
  apply Fin.ext
  match ax with
  | ⟨0, _⟩ => show win0_4.index t (0 : Fin 2) * 1 + 1 * (y 0).val = (y 0).val; rw [e0]; omega
  | ⟨1, _⟩ => show win0_4.index t (1 : Fin 2) * 16 + 1 * (y 1).val = (y 1).val; rw [e1]; omega

/-- What point t writes back is block t of `msg` of the arrays as the region finds them. -/
theorem flushed_eq (c : Dev nD) (t : Fin cfg0.N) :
    (dat0 V c).flushed 5 t
      = ((cfg0.win 5).blk t).view.read (Elt Ideal) (msg (V c main_v9) (V c main_arg3) (V c main_v10) (V c main_arg5) (V c main_v11)) := by
  have hN : t.val < 125 := lt_of_lt_of_eq t.isLt N_0
  obtain ⟨-, -, -, -, -, -, -, -, -, -, e0, e1⟩ := idx_facts t
  show (cfg0.win 5).cut (grid0.coords t) ((dat0 V c).after 5 t) = _
  rw [after0_5]
  unfold out0_5
  rw [View.canon_unit_zero hz]
  simp only [View.ld_unit_zero (S := S16000x2) hz, View.ld_unit_zero (S := S2x32) hz, View.ld_unit_zero (S := S1x32) hz,
    View.ld_unit_zero (S := S32x16) hz, View.ld_unit_zero (S := S1x16) hz]
  funext y
  obtain ⟨p, q, rfl⟩ : ∃ (p : Fin 16000) (q : Fin 16), y = ix2 p q := ⟨y 0, y 1, eq_ix2 y⟩
  rw [View.read_apply]
  refine (Payload.pay0_apply (iblk0 V c 0 t) (iblk0 V c 1 t) (iblk0 V c 2 t) (iblk0 V c 3 t) (iblk0 V c 4 t) p q).trans ?_
  rw [w1_blk V c t, b1_blk V c t, w2_blk V c t, b2_blk V c t]
  refine Eq.trans ?_ (msg_apply _ _ _ _ _ (((cfg0.win 5).blk t).view.emb (ix2 p q)) ⟨16000 * t.val + p.val, by omega⟩ q ?_ ?_).symm
  · exact Mlp.out_congr _ _ _ _ _ _ p _ q (fun a => feat_blk V c t p a _ rfl)
  · show win0_5.index t (0 : Fin 2) * 16000 + 1 * p.val = 16000 * t.val + p.val; rw [e0]; omega
  · show win0_5.index t (1 : Fin 2) * 16 + 1 * q.val = q.val; rw [e1]; omega

/-- An index of the messages is in point t's block iff each coordinate is in the block's range on its axis. -/
theorem mem_blk (t : Fin cfg0.N) (i : S2000000x16.Idx) :
    i ∈ ((cfg0.win 5).blk t).view.set ↔ ∀ a : Fin 2, win0_5.index t a * S16000x16.size a ≤ (i a).val ∧ (i a).val < win0_5.index t a * S16000x16.size a + S16000x16.size a := by
  show i ∈ ((View.whole main_v12).slice (win0_5.rect t)).set ↔ _
  rw [View.set_slice_whole, Rect.mem_set_unit]
  exact Iff.rfl

/-- Every index of the messages lies in the block of the point its row divides to. -/
theorem cover (i : S2000000x16.Idx) : ∃ t : Fin cfg0.N, (cfg0.win 5).flush t = true ∧ i ∈ ((cfg0.win 5).blk t).view.set := by
  have hi0 : (i 0).val < 2000000 := (i 0).isLt
  have hi1 : (i 1).val < 16 := (i 1).isLt
  have hlt : (i 0).val / 16000 < cfg0.N := lt_of_lt_of_eq (by omega : (i 0).val / 16000 < 125) N_0.symm
  obtain ⟨-, -, -, -, -, -, -, -, -, -, e0, e1⟩ := idx_facts ⟨(i 0).val / 16000, hlt⟩
  refine ⟨⟨(i 0).val / 16000, hlt⟩, flush0_5 _, ?_⟩
  rw [mem_blk]
  intro a
  match a with
  | ⟨0, _⟩ =>
    show win0_5.index ⟨(i 0).val / 16000, hlt⟩ (0 : Fin 2) * 16000 ≤ (i 0).val ∧ (i 0).val < win0_5.index ⟨(i 0).val / 16000, hlt⟩ (0 : Fin 2) * 16000 + 16000
    rw [e0]; show (i 0).val / 16000 * 16000 ≤ (i 0).val ∧ (i 0).val < (i 0).val / 16000 * 16000 + 16000; omega
  | ⟨1, _⟩ =>
    show win0_5.index ⟨(i 0).val / 16000, hlt⟩ (1 : Fin 2) * 16 ≤ (i 1).val ∧ (i 1).val < win0_5.index ⟨(i 0).val / 16000, hlt⟩ (1 : Fin 2) * 16 + 16
    rw [e1]; omega

/-- The messages array after the region: the perceptron on every row of the features the region found. -/
theorem final (c : Dev nD) :
    (dat0 V c).arrAt 5 cfg0.N = msg (V c main_v9) (V c main_arg3) (V c main_v10) (V c main_arg5) (V c main_v11) :=
  (dat0 V c).arrAt_eq_of_cover 5 _ (fun t _ => flushed_eq V c t) cover

end Cert.KernelIdeal.Msg

end
-- ==== Proof.RateArray.lean ====
/-
  The rate kernel's output array after its region, as one function of the arrays the region finds.

  The grid has 5 points. Point t stages rows 10000·t … 10000·t + 9999 of the reactions' summed messages and the four
  small operands whole, and writes back rows 10000·t … 10000·t + 9999 of the one-column rate array. What it writes is
  softplus of the second perceptron of those rows, and row r of that reads the summed messages' row r only, so every
  written block is the same block of ONE array. The 5 blocks cover the output (row r lies in block r / 10000).
-/
import proofs.«144607_j70798240907373_2_alg».proof.Proof.Gen.KernelIdeal.Frame
import proofs.«144607_j70798240907373_2_alg».proof.Proof.Payload
import Idealize.ShloMosaic.Lib.Pipeline.Value

set_option maxRecDepth 16384

noncomputable section

namespace Cert.KernelIdeal.Rate

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The rates as one function of the five arrays: softplus of the second perceptron on every row. -/
def rate (X : S50000x16.Idx → Elt Ideal .f32) (W1 : S16x32.Idx → Elt Ideal .f32) (B1 : S1x32.Idx → Elt Ideal .f32)
    (W2 : S32x1.Idx → Elt Ideal .f32) (B2 : S1x1.Idx → Elt Ideal .f32) : S50000x1.Idx → Elt Ideal .f32 :=
  fun i => Mlp.softplus (Mlp.out (M := 50000) (K := 16) (H := 32) (N := 1) X W1 (fun k => B1 (ix2 (0 : Fin 1) k)) W2 (fun c => B2 (ix2 (0 : Fin 1) c)) (i 0) (i 1))

/-- The same, at an index given by its coordinates. -/
theorem rate_apply (X : S50000x16.Idx → Elt Ideal .f32) (W1 : S16x32.Idx → Elt Ideal .f32) (B1 : S1x32.Idx → Elt Ideal .f32)
    (W2 : S32x1.Idx → Elt Ideal .f32) (B2 : S1x1.Idx → Elt Ideal .f32) (i : S50000x1.Idx) (r : Fin 50000) (q : Fin 1)
    (h0 : (i 0).val = r.val) (h1 : (i 1).val = q.val) :
    rate X W1 B1 W2 B2 i = Mlp.softplus (Mlp.out (M := 50000) (K := 16) (H := 32) (N := 1) X W1 (fun k => B1 (ix2 (0 : Fin 1) k)) W2 (fun c => B2 (ix2 (0 : Fin 1) c)) r q) := by
  have e0 : i 0 = r := Fin.ext h0
  have e1 : i 1 = q := Fin.ext h1
  unfold rate
  rw [e0, e1]

/-- The printed index maps over the grid: the summed messages' and the rates' blocks move down with the point, the four
    small operands stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (p, a) of the summed messages' block at point t is entry (10000·t + p, a) of the array. -/
theorem feat_blk (c : Dev nD) (t : Fin cfg1.N) (p : Fin 10000) (a : Fin 16) (r : Fin 50000) (hr : r.val = 10000 * t.val + p.val) :
    (iblk1 V c 0 t : Vec Ideal S10000x16 .f32) (ix2 p a) = (V c main_v15 : S50000x16.Idx → Elt Ideal .f32) (ix2 r a) := by
  obtain ⟨e0, e1, -⟩ := idx_facts t
  unfold iblk1
  rw [View.read_apply]
  show V c main_v15 _ = V c main_v15 _
  refine congrArg (V c main_v15) ?_
  funext ax
  apply Fin.ext
  match ax with
  | ⟨0, _⟩ => show win1_0.index t (0 : Fin 2) * 10000 + 1 * p.val = r.val; rw [e0, hr]; omega
  | ⟨1, _⟩ => show win1_0.index t (1 : Fin 2) * 16 + 1 * a.val = a.val; rw [e1]; omega

/-- The first weights' block at any point is the whole array. -/
theorem w1_blk (c : Dev nD) (t : Fin cfg1.N) : (iblk1 V c 1 t : Vec Ideal S16x32 .f32) = V c main_arg7 := by
  obtain ⟨-, -, e0, e1, -⟩ := idx_facts t
  funext y
  unfold iblk1
  rw [View.read_apply]
  show V c main_arg7 _ = V c main_arg7 y
  refine congrArg (V c main_arg7) ?_
  funext ax
  apply Fin.ext
  match ax with
  | ⟨0, _⟩ => show win1_1.index t (0 : Fin 2) * 16 + 1 * (y 0).val = (y 0).val; rw [e0]; omega
  | ⟨1, _⟩ => show win1_1.index t (1 : Fin 2) * 32 + 1 * (y 1).val = (y 1).val; rw [e1]; omega

/-- The first bias row's block at any point is the whole array. -/
theorem b1_blk (c : Dev nD) (t : Fin cfg1.N) : (iblk1 V c 2 t : Vec Ideal S1x32 .f32) = V c main_v16 := by
  obtain ⟨-, -, -, -, e0, e1, -⟩ := idx_facts t
  funext y
  unfold iblk1
  rw [View.read_apply]
  show V c main_v16 _ = V c main_v16 y
  refine congrArg (V c main_v16) ?_
  funext ax
  apply Fin.ext
  match ax with
  | ⟨0, _⟩ => show win1_2.index t (0 : Fin 2) * 1 + 1 * (y 0).val = (y 0).val; rw [e0]; omega
  | ⟨1, _⟩ => show win1_2.index t (1 : Fin 2) * 32 + 1 * (y 1).val = (y 1).val; rw [e1]; omega

/-- The second weights' block at any point is the whole array. -/
theorem w2_blk (c : Dev nD) (t : Fin cfg1.N) : (iblk1 V c 3 t : Vec Ideal S32x1 .f32) = V c main_arg9 := by
  obtain ⟨-, -, -, -, -, -, e0, e1, -⟩ := idx_facts t
  funext y
  unfold iblk1
  rw [View.read_apply]
  show V c main_arg9 _ = V c main_arg9 y
  refine congrArg (V c main_arg9) ?_
  funext ax
  apply Fin.ext
  match ax with
  | ⟨0, _⟩ => show win1_3.index t (0 : Fin 2) * 32 + 1 * (y 0).val = (y 0).val; rw [e0]; omega
  | ⟨1, _⟩ => show win1_3.index t (1 : Fin 2) * 1 + 1 * (y 1).val = (y 1).val; rw [e1]; omega

/-- The second bias' block at any point is the whole array. -/
theorem b2_blk (c : Dev nD) (t : Fin cfg1.N) : (iblk1 V c 4 t : Vec Ideal S1x1 .f32) = V c main_v17 := by
  obtain ⟨-, -, -, -, -, -, -, -, e0, e1, -⟩ := idx_facts t
  funext y
  unfold iblk1
  rw [View.read_apply]
  show V c main_v17 _ = V c main_v17 y
  refine congrArg (V c main_v17) ?_
  funext ax
  apply Fin.ext
  match ax with
  | ⟨0, _⟩ => show win1_4.index t (0 : Fin 2) * 1 + 1 * (y 0).val = (y 0).val; rw [e0]; omega
  | ⟨1, _⟩ => show win1_4.index t (1 : Fin 2) * 1 + 1 * (y 1).val = (y 1).val; rw [e1]; omega

/-- What point t writes back is block t of `rate` of the arrays as the region finds them. -/
theorem flushed_eq (c : Dev nD) (t : Fin cfg1.N) :
    (dat1 V c).flushed 5 t
      = ((cfg1.win 5).blk t).view.read (Elt Ideal) (rate (V c main_v15) (V c main_arg7) (V c main_v16) (V c main_arg9) (V c main_v17)) := by
  have hN : t.val < 5 := lt_of_lt_of_eq t.isLt N_1
  obtain ⟨-, -, -, -, -, -, -, -, -, -, e0, e1⟩ := idx_facts t
  show (cfg1.win 5).cut (grid1.coords t) ((dat1 V c).after 5 t) = _
  rw [after1_5]
  unfold out1_5
  rw [View.canon_unit_zero hz]
  simp only [View.ld_unit_zero (S := S10000x16) hz, View.ld_unit_zero (S := S16x32) hz, View.ld_unit_zero (S := S1x32) hz,
    View.ld_unit_zero (S := S32x1) hz, View.ld_unit_zero (S := S1x1) hz]
  funext y
  obtain ⟨p, q, rfl⟩ : ∃ (p : Fin 10000) (q : Fin 1), y = ix2 p q := ⟨y 0, y 1, eq_ix2 y⟩
  rw [View.read_apply]
  refine (Payload.pay1_apply (iblk1 V c 0 t) (iblk1 V c 1 t) (iblk1 V c 2 t) (iblk1 V c 3 t) (iblk1 V c 4 t) p q).trans ?_
  rw [w1_blk V c t, b1_blk V c t, w2_blk V c t, b2_blk V c t]
  refine Eq.trans ?_ (rate_apply _ _ _ _ _ (((cfg1.win 5).blk t).view.emb (ix2 p q)) ⟨10000 * t.val + p.val, by omega⟩ q ?_ ?_).symm
  · exact congrArg Mlp.softplus (Mlp.out_congr _ _ _ _ _ _ p _ q (fun a => feat_blk V c t p a _ rfl))
  · show win1_5.index t (0 : Fin 2) * 10000 + 1 * p.val = 10000 * t.val + p.val; rw [e0]; omega
  · show win1_5.index t (1 : Fin 2) * 1 + 1 * q.val = q.val; rw [e1]; omega

/-- An index of the rates is in point t's block iff each coordinate is in the block's range on its axis. -/
theorem mem_blk (t : Fin cfg1.N) (i : S50000x1.Idx) :
    i ∈ ((cfg1.win 5).blk t).view.set ↔ ∀ a : Fin 2, win1_5.index t a * S10000x1.size a ≤ (i a).val ∧ (i a).val < win1_5.index t a * S10000x1.size a + S10000x1.size a := by
  show i ∈ ((View.whole main_v18).slice (win1_5.rect t)).set ↔ _
  rw [View.set_slice_whole, Rect.mem_set_unit]
  exact Iff.rfl

/-- Every index of the rates lies in the block of the point its row divides to. -/
theorem cover (i : S50000x1.Idx) : ∃ t : Fin cfg1.N, (cfg1.win 5).flush t = true ∧ i ∈ ((cfg1.win 5).blk t).view.set := by
  have hi0 : (i 0).val < 50000 := (i 0).isLt
  have hi1 : (i 1).val < 1 := (i 1).isLt
  have hlt : (i 0).val / 10000 < cfg1.N := lt_of_lt_of_eq (by omega : (i 0).val / 10000 < 5) N_1.symm
  obtain ⟨-, -, -, -, -, -, -, -, -, -, e0, e1⟩ := idx_facts ⟨(i 0).val / 10000, hlt⟩
  refine ⟨⟨(i 0).val / 10000, hlt⟩, flush1_5 _, ?_⟩
  rw [mem_blk]
  intro a
  match a with
  | ⟨0, _⟩ =>
    show win1_5.index ⟨(i 0).val / 10000, hlt⟩ (0 : Fin 2) * 10000 ≤ (i 0).val ∧ (i 0).val < win1_5.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win1_5.index ⟨(i 0).val / 10000, hlt⟩ (1 : Fin 2) * 1 ≤ (i 1).val ∧ (i 1).val < win1_5.index ⟨(i 0).val / 10000, hlt⟩ (1 : Fin 2) * 1 + 1
    rw [e1]; omega

/-- The rate array after the region: softplus of the second perceptron on every row of the summed messages it found. -/
theorem final (c : Dev nD) :
    (dat1 V c).arrAt 5 cfg1.N = rate (V c main_v15) (V c main_arg7) (V c main_v16) (V c main_arg9) (V c main_v17) :=
  (dat1 V c).arrAt_eq_of_cover 5 _ (fun t _ => flushed_eq V c t) cover

end Cert.KernelIdeal.Rate

end
-- ==== Proof.RefRead.lean ====
/-
  The reference, read entry by entry.

  Its messages are the perceptron of Mlp.lean applied to every row of the edge features: the two `dot_general`s are
  plain sums over the contracted coordinate, each bias vector is placed as a row and repeated down the rows, and the
  host's hyperbolic tangent is the extended reals' own. Its rates are the second perceptron, whose one output column is
  re-read as a vector, followed by softplus in the form max x 0 + log1p (exp (−|x − 0|)), the branch kept for a
  not-a-number never taken.
-/
import proofs.«144607_j70798240907373_2_alg».proof.Proof.Gen.ReferenceIdeal.Read
import proofs.«144607_j70798240907373_2_alg».proof.Proof.Mlp

noncomputable section

open scoped BigOperators

namespace Cert.ReferenceIdeal.Hand

open Cert.ReferenceIdeal Cert.ReferenceIdeal.Read Idealize.ShloMosaic Idealize.ShloMosaic.ValueIdx

/-- Message (r, q) of the reference: the first perceptron on row r of the edge features. -/
theorem msg_apply (x0 : (⟨S100000, .f32⟩ : BufTy).Contents (Elt Ideal)) (x1 : (⟨S2000000, .f32⟩ : BufTy).Contents (Elt Ideal)) (x3 : (⟨S2x32, .f32⟩ : BufTy).Contents (Elt Ideal)) (x4 : (⟨S32, .f32⟩ : BufTy).Contents (Elt Ideal))
    (x5 : (⟨S32x16, .f32⟩ : BufTy).Contents (Elt Ideal)) (x6 : (⟨S16, .f32⟩ : BufTy).Contents (Elt Ideal)) (x11 : (⟨S2000000, .i32⟩ : BufTy).Contents (Elt Ideal)) (r : Fin 2000000) (q : Fin 16) :
    val_main_v18 (F := Ideal) x0 x1 x3 x4 x5 x6 x11 (ix2 r q)
      = Mlp.out (M := 2000000) (K := 2) (H := 32) (N := 16) (val_main_v9 (F := Ideal) x0 x1 x11) x3 (fun k => x4 (ix1 k)) x5 (fun c => x6 (ix1 c)) r q := by
  have l15 : ∀ k : Fin 32, lidx_main_v15 (ix2 r q) k = ix2 r k := fun k => funext fun a => Fin.ext (by match a with | ⟨0, _⟩ => rfl | ⟨1, _⟩ => rfl)
  have r15 : ∀ k : Fin 32, ridx_main_v15 (ix2 r q) k = ix2 k q := fun k => funext fun a => Fin.ext (by match a with | ⟨0, _⟩ => rfl | ⟨1, _⟩ => rfl)
  have l10 : ∀ (k : Fin 32) (a : Fin 2), lidx_main_v10 (ix2 r k) a = ix2 r a := fun k a => funext fun b => Fin.ext (by match b with | ⟨0, _⟩ => rfl | ⟨1, _⟩ => rfl)
  have r10 : ∀ (k : Fin 32) (a : Fin 2), ridx_main_v10 (ix2 r k) a = ix2 a k := fun k a => funext fun b => Fin.ext (by match b with | ⟨0, _⟩ => rfl | ⟨1, _⟩ => rfl)
  have i12 : ∀ k : Fin 32, idx_main_v11 (idx_main_v12 (ix2 r k)) = ix1 k := fun k => funext fun a => Fin.ext (by match a with | ⟨0, _⟩ => rfl)
  have i17 : idx_main_v16 (idx_main_v17 (ix2 r q)) = ix1 q := funext fun a => Fin.ext (by match a with | ⟨0, _⟩ => rfl)
  unfold Mlp.out Mlp.hidden
  rw [val_main_v18_apply, val_main_v15_apply, val_main_v17_apply, val_main_v16_apply, i17]
  simp only [l15, r15]
  simp only [val_main_v14_apply, val_main_v13_apply, val_main_v10_apply]
  simp only [l10, r10]
  simp only [val_main_v12_apply, val_main_v11_apply]
  simp only [i12]
  simp only [Ideal.hostUnary_tanh_def, Ideal.addf_def]

/-- Hidden unit k of reaction r in the reference. -/
theorem hidden_apply (x0 : (⟨S100000, .f32⟩ : BufTy).Contents (Elt Ideal)) (x1 : (⟨S2000000, .f32⟩ : BufTy).Contents (Elt Ideal)) (x3 : (⟨S2x32, .f32⟩ : BufTy).Contents (Elt Ideal)) (x4 : (⟨S32, .f32⟩ : BufTy).Contents (Elt Ideal))
    (x5 : (⟨S32x16, .f32⟩ : BufTy).Contents (Elt Ideal)) (x6 : (⟨S16, .f32⟩ : BufTy).Contents (Elt Ideal)) (x7 : (⟨S16x32, .f32⟩ : BufTy).Contents (Elt Ideal)) (x8 : (⟨S32, .f32⟩ : BufTy).Contents (Elt Ideal)) (x9 : (⟨S32x1, .f32⟩ : BufTy).Contents (Elt Ideal))
    (x10 : (⟨S1, .f32⟩ : BufTy).Contents (Elt Ideal)) (x11 x12 : (⟨S2000000, .i32⟩ : BufTy).Contents (Elt Ideal)) (r : Fin 50000) (k : Fin 32) :
    val_main_v26 (F := Ideal) x0 x1 x3 x4 x5 x6 x7 x8 x11 x12 (ix2 r k)
      = Mlp.hidden (M := 50000) (K := 16) (H := 32) (val_main_v21 (F := Ideal) x0 x1 x3 x4 x5 x6 x11 x12) x7 (fun k => x8 (ix1 k)) r k := by
  have l22 : ∀ a : Fin 16, lidx_main_v22 (ix2 r k) a = ix2 r a := fun a => funext fun b => Fin.ext (by match b with | ⟨0, _⟩ => rfl | ⟨1, _⟩ => rfl)
  have r22 : ∀ a : Fin 16, ridx_main_v22 (ix2 r k) a = ix2 a k := fun a => funext fun b => Fin.ext (by match b with | ⟨0, _⟩ => rfl | ⟨1, _⟩ => rfl)
  have i24 : idx_main_v23 (idx_main_v24 (ix2 r k)) = ix1 k := funext fun a => Fin.ext (by match a with | ⟨0, _⟩ => rfl)
  rw [val_main_v26_apply, val_main_v25_apply, val_main_v22_apply, val_main_v24_apply, val_main_v23_apply, i24]
  unfold Mlp.hidden
  rw [Ideal.hostUnary_tanh_def, Ideal.addf_def]
  refine congrArg Ideal.tanh (congrArg (· + x8 (ix1 k)) (Finset.sum_congr rfl fun a _ => ?_))
  rw [l22 a, r22 a]

/-- Entry (r, 0) of the reference's one-column logits: the second perceptron on row r of the summed messages. -/
theorem col_apply (x0 : (⟨S100000, .f32⟩ : BufTy).Contents (Elt Ideal)) (x1 : (⟨S2000000, .f32⟩ : BufTy).Contents (Elt Ideal)) (x3 : (⟨S2x32, .f32⟩ : BufTy).Contents (Elt Ideal)) (x4 : (⟨S32, .f32⟩ : BufTy).Contents (Elt Ideal))
    (x5 : (⟨S32x16, .f32⟩ : BufTy).Contents (Elt Ideal)) (x6 : (⟨S16, .f32⟩ : BufTy).Contents (Elt Ideal)) (x7 : (⟨S16x32, .f32⟩ : BufTy).Contents (Elt Ideal)) (x8 : (⟨S32, .f32⟩ : BufTy).Contents (Elt Ideal)) (x9 : (⟨S32x1, .f32⟩ : BufTy).Contents (Elt Ideal))
    (x10 : (⟨S1, .f32⟩ : BufTy).Contents (Elt Ideal)) (x11 x12 : (⟨S2000000, .i32⟩ : BufTy).Contents (Elt Ideal)) (r : Fin 50000) :
    val_main_v30 (F := Ideal) x0 x1 x3 x4 x5 x6 x7 x8 x9 x10 x11 x12 (ix2 r (0 : Fin 1))
      = Mlp.out (M := 50000) (K := 16) (H := 32) (N := 1) (val_main_v21 (F := Ideal) x0 x1 x3 x4 x5 x6 x11 x12) x7 (fun k => x8 (ix1 k)) x9 (fun c => x10 (ix1 c)) r 0 := by
  have l27 : ∀ k : Fin 32, lidx_main_v27 (ix2 r (0 : Fin 1)) k = ix2 r k := fun k => funext fun a => Fin.ext (by match a with | ⟨0, _⟩ => rfl | ⟨1, _⟩ => rfl)
  have r27 : ∀ k : Fin 32, ridx_main_v27 (ix2 r (0 : Fin 1)) k = ix2 k (0 : Fin 1) := fun k => funext fun a => Fin.ext (by match a with | ⟨0, _⟩ => rfl | ⟨1, _⟩ => rfl)
  have i29 : idx_main_v28 (idx_main_v29 (ix2 r (0 : Fin 1))) = ix1 (0 : Fin 1) := funext fun a => Fin.ext (by match a with | ⟨0, _⟩ => rfl)
  rw [val_main_v30_apply, val_main_v27_apply, val_main_v29_apply, val_main_v28_apply, i29, Ideal.addf_def]
  unfold Mlp.out
  refine congrArg (· + x10 (ix1 (0 : Fin 1))) (Finset.sum_congr rfl fun k _ => ?_)
  rw [l27 k, r27 k, hidden_apply x0 x1 x3 x4 x5 x6 x7 x8 x9 x10 x11 x12 r k]

/-- The logit of reaction r in the reference: the one column re-read as a vector. -/
theorem logit_apply (x0 : (⟨S100000, .f32⟩ : BufTy).Contents (Elt Ideal)) (x1 : (⟨S2000000, .f32⟩ : BufTy).Contents (Elt Ideal)) (x3 : (⟨S2x32, .f32⟩ : BufTy).Contents (Elt Ideal)) (x4 : (⟨S32, .f32⟩ : BufTy).Contents (Elt Ideal))
    (x5 : (⟨S32x16, .f32⟩ : BufTy).Contents (Elt Ideal)) (x6 : (⟨S16, .f32⟩ : BufTy).Contents (Elt Ideal)) (x7 : (⟨S16x32, .f32⟩ : BufTy).Contents (Elt Ideal)) (x8 : (⟨S32, .f32⟩ : BufTy).Contents (Elt Ideal)) (x9 : (⟨S32x1, .f32⟩ : BufTy).Contents (Elt Ideal))
    (x10 : (⟨S1, .f32⟩ : BufTy).Contents (Elt Ideal)) (x11 x12 : (⟨S2000000, .i32⟩ : BufTy).Contents (Elt Ideal)) (r : Fin 50000) :
    val_main_v31 (F := Ideal) x0 x1 x3 x4 x5 x6 x7 x8 x9 x10 x11 x12 (ix1 r)
      = Mlp.out (M := 50000) (K := 16) (H := 32) (N := 1) (val_main_v21 (F := Ideal) x0 x1 x3 x4 x5 x6 x11 x12) x7 (fun k => x8 (ix1 k)) x9 (fun c => x10 (ix1 c)) r 0 := by
  have i31 : idx_main_v31 (ix1 r) = ix2 r (0 : Fin 1) := funext fun a => Fin.ext (by match a with | ⟨0, _⟩ => exact Nat.div_one _ | ⟨1, _⟩ => rfl)
  exact (val_main_v31_apply x0 x1 x3 x4 x5 x6 x7 x8 x9 x10 x11 x12 (ix1 r)).trans ((congrArg (val_main_v30 (F := Ideal) x0 x1 x3 x4 x5 x6 x7 x8 x9 x10 x11 x12) i31).trans (col_apply x0 x1 x3 x4 x5 x6 x7 x8 x9 x10 x11 x12 r))

/-- No extended real differs from itself. -/
theorem cmp_une_self (x : EReal) : Ideal.cmp .une x x = 0#1 := by simp [Ideal.cmp]

theorem hlog1p_apply {s : Shape} {φ : FTy} (a : FVec Ideal s φ) (i : s.Idx) : Host.log1p a i = Ideal.log1p (a i) := rfl
theorem hexp_apply {s : Shape} {φ : FTy} (a : FVec Ideal s φ) (i : s.Idx) : Host.exp a i = Ideal.exp (a i) := rfl
theorem hnegf_apply {s : Shape} {φ : FTy} (a : FVec Ideal s φ) (i : s.Idx) : Host.negf a i = -(a i) := rfl
theorem habsf_apply {s : Shape} {φ : FTy} (a : FVec Ideal s φ) (i : s.Idx) : Host.absf a i = max (a i) (-(a i)) := rfl

/-- The reference's softplus on any vector z of logits: max z 0 + log1p (exp (−|z − 0|)), chosen by a test that never
    fires, is softplus of each entry. -/
theorem softplus_host (h : (S_ : Shape).BroadcastsInDim S50000 ![]) (z : FVec Ideal S50000 .f32) (i : S50000.Idx) :
    select (cmpf .une (subf z (broadcastInDim S50000 ![] h (constant (F := Ideal) S_ .f32 0x00000000#32)))
        (subf z (broadcastInDim S50000 ![] h (constant (F := Ideal) S_ .f32 0x00000000#32))))
      (addf z (broadcastInDim S50000 ![] h (constant (F := Ideal) S_ .f32 0x00000000#32)))
      (addf (maximumf z (broadcastInDim S50000 ![] h (constant (F := Ideal) S_ .f32 0x00000000#32)))
        (Host.log1p (Host.exp (Host.negf (Host.absf (subf z (broadcastInDim S50000 ![] h (constant (F := Ideal) S_ .f32 0x00000000#32)))))))) i
      = Mlp.softplus (z i) := by
  have hb : ∀ j : S50000.Idx, broadcastInDim S50000 ![] h (constant (F := Ideal) S_ .f32 0x00000000#32) j = (0 : EReal) := fun j =>
    (broadcastInDim_apply _ h _ j (fun a => a.elim0) (fun a => a.elim0)).trans Ideal.ofBits_zero_f32
  unfold Mlp.softplus
  simp only [select_apply, cmpf_apply, Ideal.cmpf_def, cmp_une_self, select_zero, addf_apply, maximumf_apply, subf_apply, hb,
    hlog1p_apply, hexp_apply, hnegf_apply, habsf_apply, sub_zero]

/-- The rate of reaction r in the reference: softplus of its logit. -/
theorem rate_apply (x0 : (⟨S100000, .f32⟩ : BufTy).Contents (Elt Ideal)) (x1 : (⟨S2000000, .f32⟩ : BufTy).Contents (Elt Ideal)) (x3 : (⟨S2x32, .f32⟩ : BufTy).Contents (Elt Ideal)) (x4 : (⟨S32, .f32⟩ : BufTy).Contents (Elt Ideal))
    (x5 : (⟨S32x16, .f32⟩ : BufTy).Contents (Elt Ideal)) (x6 : (⟨S16, .f32⟩ : BufTy).Contents (Elt Ideal)) (x7 : (⟨S16x32, .f32⟩ : BufTy).Contents (Elt Ideal)) (x8 : (⟨S32, .f32⟩ : BufTy).Contents (Elt Ideal)) (x9 : (⟨S32x1, .f32⟩ : BufTy).Contents (Elt Ideal))
    (x10 : (⟨S1, .f32⟩ : BufTy).Contents (Elt Ideal)) (x11 x12 : (⟨S2000000, .i32⟩ : BufTy).Contents (Elt Ideal)) (r : Fin 50000) :
    val_main_v32 (F := Ideal) x0 x1 x3 x4 x5 x6 x7 x8 x9 x10 x11 x12 (ix1 r)
      = Mlp.softplus (Mlp.out (M := 50000) (K := 16) (H := 32) (N := 1) (val_main_v21 (F := Ideal) x0 x1 x3 x4 x5 x6 x11 x12) x7 (fun k => x8 (ix1 k)) x9 (fun c => x10 (ix1 c)) r 0) := by
  rw [← logit_apply x0 x1 x3 x4 x5 x6 x7 x8 x9 x10 x11 x12 r]
  unfold val_main_v32 val_main_call0_v4 val_main_call0_v6 val_main_call0_v11 val_main_call0_v1 val_main_call0_v10 val_main_call0_v9
    val_main_call0_v8 val_main_call0_v7 val_main_call0_v3 val_main_call0_v0 val_main_call0_v2 val_main_call0_v5 val_main_call0_cst
  generalize val_main_v31 (F := Ideal) x0 x1 x3 x4 x5 x6 x7 x8 x9 x10 x11 x12 = z
  exact softplus_host _ z (ix1 r)

end Cert.ReferenceIdeal.Hand

end
-- ==== Proof.KernelValue.lean ====
/-
  The idealized kernel program's two results as functions of its arguments: the fold of @main's segments, read.

  Before the first region the host gathers the substrate concentrations and joins them with the stoichiometries into the
  edge features, and places the two bias vectors as rows. The message kernel's region leaves the perceptron of every row
  of the features (MsgArray.lean); the host scatter-adds those messages into reactions. The rate kernel's region leaves
  softplus of the second perceptron of every reaction's summed messages (RateArray.lean), as a one-column array; the host
  re-reads the column as a vector (the second result), gathers it along the edges, multiplies by the stoichiometries and
  scatter-adds into metabolites (the first result). Each stage is the reference's stage of the same name: the gathers and
  the scatter-adds are the same operations of equal operands, and the two perceptrons agree entry by entry (RefRead.lean).
-/
import proofs.«144607_j70798240907373_2_alg».proof.Proof.KernelRun
import proofs.«144607_j70798240907373_2_alg».proof.Proof.MsgArray
import proofs.«144607_j70798240907373_2_alg».proof.Proof.RateArray
import proofs.«144607_j70798240907373_2_alg».proof.Proof.RefRead
import Idealize.ShloMosaic.Lib.StableHlo.Run
import Idealize.ShloMosaic.Lib.ValueLayout

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open Idealize.ShloMosaic.StableHlo

variable (m : (ℓ : Loc nD τ sig) → Buf (Elt Ideal) ℓ) (ρ : Dev nD → PrngReg) (c : Dev nD)

/-! ## The arguments at each boundary: no host operation and no region writes one -/

theorem W1_arg2 : W1 m ρ c (Proc.devRef .tc main_arg2) = m ((c : Thread nD τ).loc main_arg2) := by
  show StableHlo.after hostOps0 (W0 m ρ c) (Proc.devRef .tc main_arg2) = _
  after_results
theorem W1_arg3 : W1 m ρ c (Proc.devRef .tc main_arg3) = m ((c : Thread nD τ).loc main_arg3) := by
  show StableHlo.after hostOps0 (W0 m ρ c) (Proc.devRef .tc main_arg3) = _
  after_results
theorem W1_arg5 : W1 m ρ c (Proc.devRef .tc main_arg5) = m ((c : Thread nD τ).loc main_arg5) := by
  show StableHlo.after hostOps0 (W0 m ρ c) (Proc.devRef .tc main_arg5) = _
  after_results
theorem W1_arg7 : W1 m ρ c (Proc.devRef .tc main_arg7) = m ((c : Thread nD τ).loc main_arg7) := by
  show StableHlo.after hostOps0 (W0 m ρ c) (Proc.devRef .tc main_arg7) = _
  after_results
theorem W1_arg8 : W1 m ρ c (Proc.devRef .tc main_arg8) = m ((c : Thread nD τ).loc main_arg8) := by
  show StableHlo.after hostOps0 (W0 m ρ c) (Proc.devRef .tc main_arg8) = _
  after_results
theorem W1_arg9 : W1 m ρ c (Proc.devRef .tc main_arg9) = m ((c : Thread nD τ).loc main_arg9) := by
  show StableHlo.after hostOps0 (W0 m ρ c) (Proc.devRef .tc main_arg9) = _
  after_results
theorem W1_arg10 : W1 m ρ c (Proc.devRef .tc main_arg10) = m ((c : Thread nD τ).loc main_arg10) := by
  show StableHlo.after hostOps0 (W0 m ρ c) (Proc.devRef .tc main_arg10) = _
  after_results
theorem W1_arg12 : W1 m ρ c (Proc.devRef .tc main_arg12) = m ((c : Thread nD τ).loc main_arg12) := by
  show StableHlo.after hostOps0 (W0 m ρ c) (Proc.devRef .tc main_arg12) = _
  after_results
theorem W1_arg13 : W1 m ρ c (Proc.devRef .tc main_arg13) = m ((c : Thread nD τ).loc main_arg13) := by
  show StableHlo.after hostOps0 (W0 m ρ c) (Proc.devRef .tc main_arg13) = _
  after_results
theorem W1_arg14 : W1 m ρ c (Proc.devRef .tc main_arg14) = m ((c : Thread nD τ).loc main_arg14) := by
  show StableHlo.after hostOps0 (W0 m ρ c) (Proc.devRef .tc main_arg14) = _
  after_results
theorem W2_arg2 : W2 m ρ c (Proc.devRef .tc main_arg2) = m ((c : Thread nD τ).loc main_arg2) :=
  (W2_of_ne m ρ c main_arg2 (by decide)).trans (W1_arg2 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_arg12 : W2 m ρ c (Proc.devRef .tc main_arg12) = m ((c : Thread nD τ).loc main_arg12) :=
  (W2_of_ne m ρ c main_arg12 (by decide)).trans (W1_arg12 m ρ c)
theorem W2_arg13 : W2 m ρ c (Proc.devRef .tc main_arg13) = m ((c : Thread nD τ).loc main_arg13) :=
  (W2_of_ne m ρ c main_arg13 (by decide)).trans (W1_arg13 m ρ c)
theorem W2_arg14 : W2 m ρ c (Proc.devRef .tc main_arg14) = m ((c : Thread nD τ).loc main_arg14) :=
  (W2_of_ne m ρ c main_arg14 (by decide)).trans (W1_arg14 m ρ c)
theorem W3_arg2 : W3 m ρ c (Proc.devRef .tc main_arg2) = m ((c : Thread nD τ).loc main_arg2) := by
  show StableHlo.after hostOps1 (W2 m ρ c) (Proc.devRef .tc main_arg2) = _
  after_results
  exact W2_arg2 m ρ c
theorem W3_arg7 : W3 m ρ c (Proc.devRef .tc main_arg7) = m ((c : Thread nD τ).loc main_arg7) := by
  show StableHlo.after hostOps1 (W2 m ρ c) (Proc.devRef .tc main_arg7) = _
  after_results
  exact W2_arg7 m ρ c
theorem W3_arg9 : W3 m ρ c (Proc.devRef .tc main_arg9) = m ((c : Thread nD τ).loc main_arg9) := by
  show StableHlo.after hostOps1 (W2 m ρ c) (Proc.devRef .tc main_arg9) = _
  after_results
  exact W2_arg9 m ρ c
theorem W3_arg13 : W3 m ρ c (Proc.devRef .tc main_arg13) = m ((c : Thread nD τ).loc main_arg13) := by
  show StableHlo.after hostOps1 (W2 m ρ c) (Proc.devRef .tc main_arg13) = _
  after_results
  exact W2_arg13 m ρ c
theorem W3_arg14 : W3 m ρ c (Proc.devRef .tc main_arg14) = m ((c : Thread nD τ).loc main_arg14) := by
  show StableHlo.after hostOps1 (W2 m ρ c) (Proc.devRef .tc main_arg14) = _
  after_results
  exact W2_arg14 m ρ c
theorem W4_arg2 : W4 m ρ c (Proc.devRef .tc main_arg2) = m ((c : Thread nD τ).loc main_arg2) :=
  (W4_of_ne m ρ c main_arg2 (by decide)).trans (W3_arg2 m ρ c)
theorem W4_arg13 : W4 m ρ c (Proc.devRef .tc main_arg13) = m ((c : Thread nD τ).loc main_arg13) :=
  (W4_of_ne m ρ c main_arg13 (by decide)).trans (W3_arg13 m ρ c)
theorem W4_arg14 : W4 m ρ c (Proc.devRef .tc main_arg14) = m ((c : Thread nD τ).loc main_arg14) :=
  (W4_of_ne m ρ c main_arg14 (by decide)).trans (W3_arg14 m ρ c)

/-! ## Before the message kernel -/

/-- The edge features the first region finds are the reference's. -/
theorem feat_eq : (W1 m ρ c (Proc.devRef .tc main_v9) : S2000000x2.Idx → Elt Ideal .f32)
    = Cert.ReferenceIdeal.Read.val_main_v9 (F := Ideal) (m ((c : Thread nD τ).loc main_arg0)) (m ((c : Thread nD τ).loc main_arg1)) (m ((c : Thread nD τ).loc main_arg11)) := by
  show StableHlo.after hostOps0 (W0 m ρ c) (Proc.devRef .tc main_v9) = _
  after_results
  rfl

/-- The first bias, placed as a row. -/
theorem b1m_eq : (W1 m ρ c (Proc.devRef .tc main_v10) : S1x32.Idx → Elt Ideal .f32)
    = shapeCast S1x32 (m ((c : Thread nD τ).loc main_arg4)) shapeCasts_S32_S1x32 := by
  show StableHlo.after hostOps0 (W0 m ρ c) (Proc.devRef .tc main_v10) = _
  after_results
  rfl

/-- The second bias, placed as a row. -/
theorem b2m_eq : (W1 m ρ c (Proc.devRef .tc main_v11) : S1x16.Idx → Elt Ideal .f32)
    = shapeCast S1x16 (m ((c : Thread nD τ).loc main_arg6)) shapeCasts_S16_S1x16 := by
  show StableHlo.after hostOps0 (W0 m ρ c) (Proc.devRef .tc main_v11) = _
  after_results
  rfl

/-! ## The messages -/

/-- After the first region the messages are the reference's, entry by entry. -/
theorem msgs_eq : (W2 m ρ c (Proc.devRef .tc main_v12) : S2000000x16.Idx → Elt Ideal .f32)
    = Cert.ReferenceIdeal.Read.val_main_v18 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) := by
  refine ((W2_arr m ρ c 5).trans (Msg.final (V1 m ρ) c)).trans ?_
  funext i
  obtain ⟨r, q, rfl⟩ : ∃ (r : Fin 2000000) (q : Fin 16), i = ix2 r q := ⟨i 0, i 1, eq_ix2 i⟩
  rw [Msg.msg_apply _ _ _ _ _ (ix2 r q) r q rfl rfl, Cert.ReferenceIdeal.Hand.msg_apply]
  show Mlp.out (W1 m ρ c (Proc.devRef .tc main_v9)) (W1 m ρ c (Proc.devRef .tc main_arg3))
      (fun k => W1 m ρ c (Proc.devRef .tc main_v10) (ix2 (0 : Fin 1) k)) (W1 m ρ c (Proc.devRef .tc main_arg5))
      (fun c' => W1 m ρ c (Proc.devRef .tc main_v11) (ix2 (0 : Fin 1) c')) r q = _
  rw [feat_eq m ρ c, b1m_eq m ρ c, b2m_eq m ρ c, W1_arg3 m ρ c, W1_arg5 m ρ c]
  simp only [shapeCast_a_1a_apply]

/-- The messages summed into reactions are the reference's. -/
theorem hrxn_eq : (W3 m ρ c (Proc.devRef .tc main_v15) : S50000x16.Idx → Elt Ideal .f32)
    = Cert.ReferenceIdeal.Read.val_main_v21 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) := by
  show StableHlo.after hostOps1 (W2 m ρ c) (Proc.devRef .tc main_v15) = _
  after_results
  rw [W2_arg12 m ρ c, msgs_eq m ρ c]
  rfl

/-- The rate kernel's first bias, placed as a row. -/
theorem b1r_eq : (W3 m ρ c (Proc.devRef .tc main_v16) : S1x32.Idx → Elt Ideal .f32)
    = shapeCast S1x32 (m ((c : Thread nD τ).loc main_arg8)) shapeCasts_S32_S1x32 := by
  show StableHlo.after hostOps1 (W2 m ρ c) (Proc.devRef .tc main_v16) = _
  after_results
  rw [W2_arg8 m ρ c]
  rfl

/-- The rate kernel's second bias, placed as a row. -/
theorem b2r_eq : (W3 m ρ c (Proc.devRef .tc main_v17) : S1x1.Idx → Elt Ideal .f32)
    = shapeCast S1x1 (m ((c : Thread nD τ).loc main_arg10)) shapeCasts_S1_S1x1 := by
  show StableHlo.after hostOps1 (W2 m ρ c) (Proc.devRef .tc main_v17) = _
  after_results
  rw [W2_arg10 m ρ c]
  rfl

/-! ## The rates -/

/-- After the second region, row r of the one-column rate array is the reference's rate of reaction r. -/
theorem rate_entry (r : Fin 50000) : (W4 m ρ c (Proc.devRef .tc main_v18) : S50000x1.Idx → Elt Ideal .f32) (ix2 r (0 : Fin 1))
    = Cert.ReferenceIdeal.Read.val_main_v32 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix1 r) := by
  rw [show W4 m ρ c (Proc.devRef .tc main_v18) = _ from (W4_arr m ρ c 5).trans (Rate.final (V3 m ρ) c)]
  rw [Rate.rate_apply _ _ _ _ _ (ix2 r (0 : Fin 1)) r 0 rfl rfl, Cert.ReferenceIdeal.Hand.rate_apply]
  show Mlp.softplus (Mlp.out (W3 m ρ c (Proc.devRef .tc main_v15)) (W3 m ρ c (Proc.devRef .tc main_arg7))
      (fun k => W3 m ρ c (Proc.devRef .tc main_v16) (ix2 (0 : Fin 1) k)) (W3 m ρ c (Proc.devRef .tc main_arg9))
      (fun c' => W3 m ρ c (Proc.devRef .tc main_v17) (ix2 (0 : Fin 1) c')) r 0) = _
  rw [hrxn_eq m ρ c, b1r_eq m ρ c, b2r_eq m ρ c, W3_arg7 m ρ c, W3_arg9 m ρ c]
  simp only [shapeCast_a_1a_apply]

/-- The second result: the rate column re-read as a vector is the reference's rates. -/
theorem v19_eq : (W5 m ρ c (Proc.devRef .tc main_v19) : S50000.Idx → Elt Ideal .f32)
    = Cert.ReferenceIdeal.Read.val_main_v32 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have h : (W5 m ρ c (Proc.devRef .tc main_v19) : S50000.Idx → Elt Ideal .f32)
      = shapeCast S50000 (W4 m ρ c (Proc.devRef .tc main_v18) : S50000x1.Idx → Elt Ideal .f32) shapeCasts_S50000x1_S50000 := by
    show StableHlo.after hostOps2 (W4 m ρ c) (Proc.devRef .tc main_v19) = _
    after_results
    rfl
  rw [h]
  funext i
  obtain ⟨r, rfl⟩ : ∃ r : Fin 50000, i = ix1 r := ⟨i 0, eq_ix1 i⟩
  rw [shapeCast_apply _ shapeCasts_S50000x1_S50000 (ix1 r) (ix2 r (0 : Fin 1))
    (by rw [Shape.rowMajor_val_two, Shape.rowMajor_val_one]; show r.val * 1 + 0 = r.val; omega)]
  exact rate_entry m ρ c r

set_option maxHeartbeats 1000000 in
/-- The first result: the reference's, the rates entering the same gather, product and scatter-add. -/
theorem v30_eq : (W5 m ρ c (Proc.devRef .tc main_v30) : S100000.Idx → Elt Ideal .f32)
    = Cert.ReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  generalize hR : Cert.ReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) = R
  show StableHlo.after hostOps2 (W4 m ρ c) (Proc.devRef .tc main_v30) = R
  after_results
  rw [W4_arg13 m ρ c, W4_arg2 m ρ c, W4_arg14 m ρ c, ← hR]
  refine (congrArg (fun T => Host.scatterAdd scatter_S100000_S4000000x1_S4000000_n_0_0_1 _ _
      (mulf _ (Host.gather gather_S50000_S4000000x1_S4000000_n_0_n_n_0_1_1 T _)))
    (Eq.trans (?_ : _ = W5 m ρ c (Proc.devRef .tc main_v19)) (v19_eq m ρ c))).trans ?_
  · show _ = StableHlo.after hostOps2 (W4 m ρ c) (Proc.devRef .tc main_v19)
    after_results
  · rfl

/-! ## The run, read -/

/-- Every weakly fair execution of the idealized kernel program terminates with the two results at the reference's
    functions of the arguments, the arguments unchanged. -/
theorem run_values : θ_run defs (onTc (τ := τ) (main (F := Ideal))) ⟨m, fun _ => 0, ρ⟩ (fun r => ∀ c : Dev nD,
      r.2.mem ((c.tc : Thread nD τ).loc main_v30) = Cert.ReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c.tc : Thread nD τ).loc main_v19) = Cert.ReferenceIdeal.Read.val_main_v32 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (v30_eq m ρ c), (h c).2.1.trans (v19_eq m ρ c), (h c).2.2⟩) (run_named m ρ)

end Cert.KernelIdeal.Hand

end
-- ==== Proof.lean ====
/-
  A message-passing step on a metabolic network, computed twice.

  Both programs gather each substrate edge's metabolite concentration and join it with the edge's stoichiometry, run a
  two-layer perceptron (2 → 32 → 16, hyperbolic tangent between) on every edge, scatter-add the edge messages into
  reactions, run a second perceptron (16 → 32 → 1) followed by softplus on every reaction to get its rate, gather the
  rates along all edges, multiply by the stoichiometries and scatter-add into metabolites. The kernel program runs the
  two perceptrons as tiled TPU kernels — 125 blocks of 16000 edges, 5 blocks of 10000 reactions —, rounding the matrix
  products' operands to bf16; the reference runs them as whole-array host operations.

  On the extended reals a change of float format is the identity, a matrix product into a zero accumulator and the host's
  `dot_general` are the same sum over the contracted coordinate, and a perceptron's row depends on its input's row only,
  so a tiled perceptron is the whole one (MsgArray.lean, RateArray.lean over Payload.lean and Mlp.lean; the reference read
  in RefRead.lean). Everything else — the gathers, the scatter-adds, the products — is the same operation of equal
  operands in both programs (KernelValue.lean). No law used needs finiteness: the precondition is never opened.

  The three frames are the generated ones (the reference's is its generated run with the results dropped); the
  idealization rewrote nothing, so `preserves` asks for nothing.
-/
import proofs.«144607_j70798240907373_2_alg».proof.Defs
import proofs.«144607_j70798240907373_2_alg».proof.Proof.Gen.Kernel
import proofs.«144607_j70798240907373_2_alg».proof.Proof.Gen.Kernel.Skeleton
import proofs.«144607_j70798240907373_2_alg».proof.Proof.Gen.Kernel.Launch
import proofs.«144607_j70798240907373_2_alg».proof.Proof.Gen.Kernel.Points
import proofs.«144607_j70798240907373_2_alg».proof.Proof.Gen.Kernel.Frame
import proofs.«144607_j70798240907373_2_alg».proof.Proof.Gen.KernelIdeal
import proofs.«144607_j70798240907373_2_alg».proof.Proof.Gen.KernelIdeal.Skeleton
import proofs.«144607_j70798240907373_2_alg».proof.Proof.Gen.KernelIdeal.Launch
import proofs.«144607_j70798240907373_2_alg».proof.Proof.Gen.KernelIdeal.Points
import proofs.«144607_j70798240907373_2_alg».proof.Proof.Gen.KernelIdeal.Frame
import proofs.«144607_j70798240907373_2_alg».proof.Proof.Gen.ReferenceIdeal
import proofs.«144607_j70798240907373_2_alg».proof.Proof.Gen.ReferenceIdeal.Run
import proofs.«144607_j70798240907373_2_alg».proof.Proof.Gen.ReferenceIdeal.Read
import proofs.«144607_j70798240907373_2_alg».proof.Proof.Gen.Pre_finite_inputs
import proofs.«144607_j70798240907373_2_alg».proof.Proof.KernelValue
import Idealize.ShloMosaic.Adequacy
import Idealize.ShloMosaic.Init

noncomputable section

namespace Cert.Proof

open Idealize.ShloMosaic Idealize.SL.Sem

/-- The kernel program as printed terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the fifteen arguments both idealized programs end with the same two results: each is
    the reference's function of the arguments, at the kernel's arguments on one side and at the reference's, which are
    the same arrays, on the other. -/
theorem algebraic : Cert.algebraic_KernelIdeal_ReferenceIdeal := by
  intro m ρ m' ρ' _ hagree
  refine ⟨_, _, Cert.KernelIdeal.Hand.run_values m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9, e10, e11, e12, e13, e14⟩ := hagree c
  refine ⟨(h c).1.trans ?_, (h c).2.1.trans ?_, (h c).2.2⟩
  · rw [Cert.ReferenceIdeal.Read.val_main_v43_eq, e0, e1, e2, e3, e4, e5, e6, e7, e8, e9, e10, e11, e12, e13, e14]
  · rw [Cert.ReferenceIdeal.Read.val_main_v32_eq, e0, e1, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
